-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x5000000 : Shape := ⟨2, ![2, 5000000]⟩
abbrev S2x2000000 : Shape := ⟨2, ![2, 2000000]⟩
abbrev S500000x16 : Shape := ⟨2, ![500000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S16 .f32) (main_arg8 : FVec F S32x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg7
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1 .f32 := Host.absf main_arg8
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S500000 32) (main_arg1 : IVec S2x5000000 32) (main_arg2 : IVec S2x2000000 32) (main_arg3 : FVec F S500000x16 .f32) (main_arg4 : FVec F S16x16 .f32) (main_arg5 : FVec F S16 .f32) (main_arg6 : FVec F S16x16 .f32) (main_arg7 : FVec F S16 .f32) (main_arg8 : FVec F S32x1 .f32) (main_arg9 : FVec F S1 .f32) : IVec S_ 1 :=
  let main_v0 : FVec F S500000x16 .f32 := Host.absf main_arg3
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S16x16 .f32 := Host.absf main_arg4
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg6
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg7 main_arg8 main_arg9 main_v13 main_v16
-- ==== Kernel.lean ====
abbrev S500000 : Shape := ⟨1, ![500000]⟩
abbrev S2x5000000 : Shape := ⟨2, ![2, 5000000]⟩
abbrev S2x2000000 : Shape := ⟨2, ![2, 2000000]⟩
abbrev S500000x16 : Shape := ⟨2, ![500000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S1x5000000 : Shape := ⟨2, ![1, 5000000]⟩
abbrev S5000000 : Shape := ⟨1, ![5000000]⟩
abbrev S5500000 : Shape := ⟨1, ![5500000]⟩
abbrev S_ : Shape := ⟨0, ![]⟩
abbrev S5500000x1 : Shape := ⟨2, ![5500000, 1]⟩
abbrev S500000x1 : Shape := ⟨2, ![500000, 1]⟩
abbrev S5000x16 : Shape := ⟨2, ![5000, 16]⟩
abbrev S5500000x16 : Shape := ⟨2, ![5500000, 16]⟩
abbrev S1x16 : Shape := ⟨2, ![1, 16]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S16x1 : Shape := ⟨2, ![16, 1]⟩
abbrev S5000x1 : Shape := ⟨2, ![5000, 1]⟩
abbrev S1x1 : Shape := ⟨2, ![1, 1]⟩

abbrev nBuf : Space → Nat
  | .hbm => 113
  | .vmem => 31
  | .smem => 0
  | _ => 0

abbrev bufTy : (tb : Table) → Fin (tcTables nBuf tb) → BufTy
  | .hbm, ⟨0, _⟩ => ⟨S500000, .i32⟩
  | .hbm, ⟨1, _⟩ => ⟨S2x5000000, .i32⟩
  | .hbm, ⟨2, _⟩ => ⟨S2x2000000, .i32⟩
  | .hbm, ⟨3, _⟩ => ⟨S500000x16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S32x1, .f32⟩
  | .hbm, ⟨9, _⟩ => ⟨S1, .f32⟩
  | .hbm, ⟨10, _⟩ => ⟨S500000, .i32⟩
  | .hbm, ⟨11, _⟩ => ⟨S1x5000000, .i32⟩
  | .hbm, ⟨12, _⟩ => ⟨S5000000, .i32⟩
  | .hbm, ⟨13, _⟩ => ⟨S5500000, .i32⟩
  | .hbm, ⟨14, _⟩ => ⟨S1x5000000, .i32⟩
  | .hbm, ⟨15, _⟩ => ⟨S5000000, .i32⟩
  | .hbm, ⟨16, _⟩ => ⟨S5500000, .i32⟩
  | .hbm, ⟨17, _⟩ => ⟨S_, .f32⟩
  | .hbm, ⟨18, _⟩ => ⟨S5500000, .f32⟩
  | .hbm, ⟨19, _⟩ => ⟨S_, .f32⟩
  | .hbm, ⟨20, _⟩ => ⟨S500000, .f32⟩
  | .hbm, ⟨21, _⟩ => ⟨S5500000x1, .i32⟩
  | .hbm, ⟨22, _⟩ => ⟨S500000, .f32⟩
  | .hbm, ⟨23, _⟩ => ⟨S500000, .f32⟩
  | .hbm, ⟨24, _⟩ => ⟨S_, .i32⟩
  | .hbm, ⟨25, _⟩ => ⟨S5500000, .i32⟩
  | .hbm, ⟨26, _⟩ => ⟨S5500000, .i1⟩
  | .hbm, ⟨27, _⟩ => ⟨S_, .i32⟩
  | .hbm, ⟨28, _⟩ => ⟨S5500000, .i32⟩
  | .hbm, ⟨29, _⟩ => ⟨S5500000, .i32⟩
  | .hbm, ⟨30, _⟩ => ⟨S5500000, .i32⟩
  | .hbm, ⟨31, _⟩ => ⟨S5500000x1, .i32⟩
  | .hbm, ⟨32, _⟩ => ⟨S5500000, .f32⟩
  | .hbm, ⟨33, _⟩ => ⟨S_, .i32⟩
  | .hbm, ⟨34, _⟩ => ⟨S5500000, .i32⟩
  | .hbm, ⟨35, _⟩ => ⟨S5500000, .i1⟩
  | .hbm, ⟨36, _⟩ => ⟨S_, .i32⟩
  | .hbm, ⟨37, _⟩ => ⟨S5500000, .i32⟩
  | .hbm, ⟨38, _⟩ => ⟨S5500000, .i32⟩
  | .hbm, ⟨39, _⟩ => ⟨S5500000, .i32⟩
  | .hbm, ⟨40, _⟩ => ⟨S5500000x1, .i32⟩
  | .hbm, ⟨41, _⟩ => ⟨S5500000, .f32⟩
  | .hbm, ⟨42, _⟩ => ⟨S5500000, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x16, .f32⟩
  | .hbm, ⟨52, _⟩ => ⟨S500000x16, .f32⟩
  | .hbm, ⟨53, _⟩ => ⟨S_, .i32⟩
  | .hbm, ⟨54, _⟩ => ⟨S5500000, .i32⟩
  | .hbm, ⟨55, _⟩ => ⟨S5500000, .i1⟩
  | .hbm, ⟨56, _⟩ => ⟨S_, .i32⟩
  | .hbm, ⟨57, _⟩ => ⟨S5500000, .i32⟩
  | .hbm, ⟨58, _⟩ => ⟨S5500000, .i32⟩
  | .hbm, ⟨59, _⟩ => ⟨S5500000, .i32⟩
  | .hbm, ⟨60, _⟩ => ⟨S5500000x1, .i32⟩
  | .hbm, ⟨61, _⟩ => ⟨S5500000x16, .f32⟩
  | .hbm, ⟨62, _⟩ => ⟨S5500000x1, .f32⟩
  | .hbm, ⟨63, _⟩ => ⟨S5500000x16, .f32⟩
  | .hbm, ⟨64, _⟩ => ⟨S5500000x16, .f32⟩
  | .hbm, ⟨65, _⟩ => ⟨S_, .f32⟩
  | .hbm, ⟨66, _⟩ => ⟨S500000x16, .f32⟩
  | .hbm, ⟨67, _⟩ => ⟨S5500000x1, .i32⟩
  | .hbm, ⟨68, _⟩ => ⟨S500000x16, .f32⟩
  | .hbm, ⟨69, _⟩ => ⟨S500000x16, .f32⟩
  | .hbm, ⟨70, _⟩ => ⟨S500000x16, .f32⟩
  | .hbm, ⟨71, _⟩ => ⟨S_, .i32⟩
  | .hbm, ⟨72, _⟩ => ⟨S5500000, .i32⟩
  | .hbm, ⟨73, _⟩ => ⟨S5500000, .i1⟩
  | .hbm, ⟨74, _⟩ => ⟨S_, .i32⟩
  | .hbm, ⟨75, _⟩ => ⟨S5500000, .i32⟩
  | .hbm, ⟨76, _⟩ => ⟨S5500000, .i32⟩
  | .hbm, ⟨77, _⟩ => ⟨S5500000, .i32⟩
  | .hbm, ⟨78, _⟩ => ⟨S5500000x1, .i32⟩
  | .hbm, ⟨79, _⟩ => ⟨S5500000x16, .f32⟩
  | .hbm, ⟨80, _⟩ => ⟨S5500000x1, .f32⟩
  | .hbm, ⟨81, _⟩ => ⟨S5500000x16, .f32⟩
  | .hbm, ⟨82, _⟩ => ⟨S5500000x16, .f32⟩
  | .hbm, ⟨83, _⟩ => ⟨S_, .f32⟩
  | .hbm, ⟨84, _⟩ => ⟨S500000x16, .f32⟩
  | .hbm, ⟨85, _⟩ => ⟨S5500000x1, .i32⟩
  | .hbm, ⟨86, _⟩ => ⟨S500000x16, .f32⟩
  | .hbm, ⟨87, _⟩ => ⟨S500000x16, .f32⟩
  | .hbm, ⟨88, _⟩ => ⟨S1x2000000, .i32⟩
  | .hbm, ⟨89, _⟩ => ⟨S2000000, .i32⟩
  | .hbm, ⟨90, _⟩ => ⟨S_, .i32⟩
  | .hbm, ⟨91, _⟩ => ⟨S2000000, .i32⟩
  | .hbm, ⟨92, _⟩ => ⟨S2000000, .i1⟩
  | .hbm, ⟨93, _⟩ => ⟨S_, .i32⟩
  | .hbm, ⟨94, _⟩ => ⟨S2000000, .i32⟩
  | .hbm, ⟨95, _⟩ => ⟨S2000000, .i32⟩
  | .hbm, ⟨96, _⟩ => ⟨S2000000, .i32⟩
  | .hbm, ⟨97, _⟩ => ⟨S2000000x1, .i32⟩
  | .hbm, ⟨98, _⟩ => ⟨S2000000x16, .f32⟩
  | .hbm, ⟨99, _⟩ => ⟨S1x2000000, .i32⟩
  | .hbm, ⟨100, _⟩ => ⟨S2000000, .i32⟩
  | .hbm, ⟨101, _⟩ => ⟨S_, .i32⟩
  | .hbm, ⟨102, _⟩ => ⟨S2000000, .i32⟩
  | .hbm, ⟨103, _⟩ => ⟨S2000000, .i1⟩
  | .hbm, ⟨104, _⟩ => ⟨S_, .i32⟩
  | .hbm, ⟨105, _⟩ => ⟨S2000000, .i32⟩
  | .hbm, ⟨106, _⟩ => ⟨S2000000, .i32⟩
  | .hbm, ⟨107, _⟩ => ⟨S2000000, .i32⟩
  | .hbm, ⟨108, _⟩ => ⟨S2000000x1, .i32⟩
  | .hbm, ⟨109, _⟩ => ⟨S2000000x16, .f32⟩
  | .hbm, ⟨110, _⟩ => ⟨S16x1, .f32⟩
  | .hbm, ⟨111, _⟩ => ⟨S16x1, .f32⟩
  | .hbm, ⟨112, _⟩ => ⟨S2000000x1, .f32⟩
  | .local _ .vmem, ⟨0, _⟩ => ⟨S500000, .f32⟩
  | .local _ .vmem, ⟨1, _⟩ => ⟨S500000, .f32⟩
  | .local _ .vmem, ⟨2, _⟩ => ⟨S5000x16, .f32⟩
  | .local _ .vmem, ⟨3, _⟩ => ⟨S5000x16, .f32⟩
  | .local _ .vmem, ⟨4, _⟩ => ⟨S16x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S16x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S16x1, .f32⟩
  | .local _ .vmem, ⟨27, _⟩ => ⟨S16x1, .f32⟩
  | .local _ .vmem, ⟨28, _⟩ => ⟨S1, .f32⟩
  | .local _ .vmem, ⟨29, _⟩ => ⟨S5000x1, .f32⟩
  | .local _ .vmem, ⟨30, _⟩ => ⟨S5000x1, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg2_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg2_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg4_0 : Ref sig .tc := ⟨.vmem, 28, rfl⟩
abbrev cc5_stg5_0 : Ref sig .tc := ⟨.vmem, 29, rfl⟩
abbrev cc5_stg5_1 : Ref sig .tc := ⟨.vmem, 30, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc4_sem0_0 : DmaSem sig := 17
abbrev cc4_sem0_1 : DmaSem sig := 18
abbrev cc4_sem1_0 : DmaSem sig := 19
abbrev cc4_sem2_0 : DmaSem sig := 20
abbrev cc4_sem2_1 : DmaSem sig := 21
abbrev cc5_sem0_0 : DmaSem sig := 22
abbrev cc5_sem0_1 : DmaSem sig := 23
abbrev cc5_sem1_0 : DmaSem sig := 24
abbrev cc5_sem1_1 : DmaSem sig := 25
abbrev cc5_sem2_0 : DmaSem sig := 26
abbrev cc5_sem3_0 : DmaSem sig := 27
abbrev cc5_sem4_0 : DmaSem sig := 28
abbrev cc5_sem5_0 : DmaSem sig := 29
abbrev cc5_sem5_1 : DmaSem sig := 30

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S500000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x5000000_S1x5000000_0_0 : S2x5000000.Slices ![0, 0] S1x5000000
  shapeCasts_S1x5000000_S5000000 : S1x5000000.ShapeCasts S5000000
  concatenates_S5000000_S500000_S5500000_d0 : Shape.Concatenates [S5000000, S500000] S5500000 0
  slices_S2x5000000_S1x5000000_1_0 : S2x5000000.Slices ![1, 0] S1x5000000
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  inb_S500000_S500000_0 : ∀ a, (![0] : Fin 1 → Nat) a + S500000.size a ≤ S500000.size a
  h_S500000 : 0 < S500000.numel
  shapeCasts_S500000_S500000 : S500000.ShapeCasts S500000
  bcast_S500000_S500000x1_0 : S500000.BroadcastsInDim S500000x1 (![0] : Fin 1 → Fin S500000x1.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S5500000x1_S5500000x16_0_1 : S5500000x1.BroadcastsInDim S5500000x16 (![0, 1] : Fin 2 → Fin S5500000x16.rank)
  bcast_S_S500000x16 : S_.BroadcastsInDim S500000x16 (![] : Fin 0 → Fin S500000x16.rank)
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  slices_S32x1_S16x1_0_0 : S32x1.Slices ![0, 0] S16x1
  slices_S32x1_S16x1_16_0 : S32x1.Slices ![16, 0] S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  gather_S500000x16_S500000x1_S500000x16_1_0_n_n_0_1_116_wf : GatherDims.WF S500000x16 S500000x1 S500000x16 [1] [0] [] [0] [] 1 ![1, 16]
  dot_S5000x16_S16x16_S5000x16_1_0_0_1_n_n_wf : DotDims.WF S5000x16 S16x16 S5000x16 [1] [0] [0] [1] [] []
  gather_S500000x16_S5500000x1_S5500000x16_1_0_n_n_0_1_116_wf : GatherDims.WF S500000x16 S5500000x1 S5500000x16 [1] [0] [] [0] [] 1 ![1, 16]
  scatter_S500000x16_S5500000x1_S5500000x16_1_0_0_1_wf : ScatterDims.WF S500000x16 S5500000x1 S5500000x16 [1] [0] [0] 1
  gather_S500000x16_S2000000x1_S2000000x16_1_0_n_n_0_1_116_wf : GatherDims.WF S500000x16 S2000000x1 S2000000x16 [1] [0] [] [0] [] 1 ![1, 16]
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S500000.size a ≤ S500000.size a
  hwx0_0 : ∀ i : grid0.Coords, EltTy.bits .f32 = 32 ∨ (Rect.block (s := S500000) S500000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500000.size a ≤ S500000.size a
  hwx0_1 : ∀ i : grid0.Coords, EltTy.bits .f32 = 32 ∨ (Rect.block (s := S500000) S500000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S500000x16.size a
  hwx1_2 : ∀ i : grid1.Coords, EltTy.bits .f32 = 32 ∨ (Rect.block (s := S500000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S500000x16.size a
  hwx2_2 : ∀ i : grid2.Coords, EltTy.bits .f32 = 32 ∨ (Rect.block (s := S500000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S500000x16.size a
  hwx3_2 : ∀ i : grid3.Coords, EltTy.bits .f32 = 32 ∨ (Rect.block (s := S500000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S500000x16.size a
  hwx4_0 : ∀ i : grid4.Coords, EltTy.bits .f32 = 32 ∨ (Rect.block (s := S500000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16.size a ≤ S16.size a
  hwx4_1 : ∀ i : grid4.Coords, EltTy.bits .f32 = 32 ∨ (Rect.block (s := S16) S16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S500000x16.size a
  hwx4_2 : ∀ i : grid4.Coords, EltTy.bits .f32 = 32 ∨ (Rect.block (s := S500000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S2000000x16.size a
  hwx5_0 : ∀ i : grid5.Coords, EltTy.bits .f32 = 32 ∨ (Rect.block (s := S2000000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x16.size a ≤ S2000000x16.size a
  hwx5_1 : ∀ i : grid5.Coords, EltTy.bits .f32 = 32 ∨ (Rect.block (s := S2000000x16) S5000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x1.size a ≤ S16x1.size a
  hwx5_2 : ∀ i : grid5.Coords, EltTy.bits .f32 = 32 ∨ (Rect.block (s := S16x1) S16x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x1.size a ≤ S16x1.size a
  hwx5_3 : ∀ i : grid5.Coords, EltTy.bits .f32 = 32 ∨ (Rect.block (s := S16x1) S16x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1.size a ≤ S1.size a
  hwx5_4 : ∀ i : grid5.Coords, EltTy.bits .f32 = 32 ∨ (Rect.block (s := S1) S1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S2000000x1.size a
  hwx5_5 : ∀ i : grid5.Coords, EltTy.bits .f32 = 32 ∨ (Rect.block (s := S2000000x1) S5000x1.size (cc5_transform_5 i) (hinb5_5 i)).WholeWords (EltTy.packing .f32)

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def gather_S500000x16_S500000x1_S500000x16_1_0_n_n_0_1_116 : GatherDims S500000x16 S500000x1 S500000x16 where
  offsetDims := [1]
  collapsedSliceDims := [0]
  operandBatchingDims := []
  startIndicesBatchingDims := []
  startIndexMap := [0]
  indexVectorDim := 1
  sliceSizes := ![1, 16]
  wf := gather_S500000x16_S500000x1_S500000x16_1_0_n_n_0_1_116_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S500000x16_S5500000x1_S5500000x16_1_0_n_n_0_1_116 : GatherDims S500000x16 S5500000x1 S5500000x16 where
  offsetDims := [1]
  collapsedSliceDims := [0]
  operandBatchingDims := []
  startIndicesBatchingDims := []
  startIndexMap := [0]
  indexVectorDim := 1
  sliceSizes := ![1, 16]
  wf := gather_S500000x16_S5500000x1_S5500000x16_1_0_n_n_0_1_116_wf
def scatter_S500000x16_S5500000x1_S5500000x16_1_0_0_1 : ScatterDims S500000x16 S5500000x1 S5500000x16 where
  updateWindowDims := [1]
  insertedWindowDims := [0]
  scatterDimsToOperandDims := [0]
  indexVectorDim := 1
  wf := scatter_S500000x16_S5500000x1_S5500000x16_1_0_0_1_wf
def gather_S500000x16_S2000000x1_S2000000x16_1_0_n_n_0_1_116 : GatherDims S500000x16 S2000000x1 S2000000x16 where
  offsetDims := [1]
  collapsedSliceDims := [0]
  operandBatchingDims := []
  startIndicesBatchingDims := []
  startIndexMap := [0]
  indexVectorDim := 1
  sliceSizes := ![1, 16]
  wf := gather_S500000x16_S2000000x1_S2000000x16_1_0_n_n_0_1_116_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v10) S500000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S500000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v33) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S16x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S16x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg9) S1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S5000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S500000 : Shape := ⟨1, ![500000]⟩
abbrev S2x5000000 : Shape := ⟨2, ![2, 5000000]⟩
abbrev S2x2000000 : Shape := ⟨2, ![2, 2000000]⟩
abbrev S500000x16 : Shape := ⟨2, ![500000, 16]⟩
abbrev S16x16 : Shape := ⟨2, ![16, 16]⟩
abbrev S16 : Shape := ⟨1, ![16]⟩
abbrev S32x1 : Shape := ⟨2, ![32, 1]⟩
abbrev S1 : Shape := ⟨1, ![1]⟩
abbrev S1x5000000 : Shape := ⟨2, ![1, 5000000]⟩
abbrev S5000000 : Shape := ⟨1, ![5000000]⟩
abbrev S5500000 : Shape := ⟨1, ![5500000]⟩
abbrev S_ : Shape := ⟨0, ![]⟩
abbrev S5500000x1 : Shape := ⟨2, ![5500000, 1]⟩
abbrev S500000x1 : Shape := ⟨2, ![500000, 1]⟩
abbrev S5500000x16 : Shape := ⟨2, ![5500000, 16]⟩
abbrev S1x16 : Shape := ⟨2, ![1, 16]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S2000000x32 : Shape := ⟨2, ![2000000, 32]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S500000, .i32⟩
  | 1 => ⟨S2x5000000, .i32⟩
  | 2 => ⟨S2x2000000, .i32⟩
  | 3 => ⟨S500000x16, .f32⟩
  | 4 => ⟨S16x16, .f32⟩
  | 5 => ⟨S16, .f32⟩
  | 6 => ⟨S16x16, .f32⟩
  | 7 => ⟨S16, .f32⟩
  | 8 => ⟨S32x1, .f32⟩
  | 9 => ⟨S1, .f32⟩
  | 10 => ⟨S500000, .i32⟩
  | 11 => ⟨S1x5000000, .i32⟩
  | 12 => ⟨S5000000, .i32⟩
  | 13 => ⟨S5500000, .i32⟩
  | 14 => ⟨S1x5000000, .i32⟩
  | 15 => ⟨S5000000, .i32⟩
  | 16 => ⟨S5500000, .i32⟩
  | 17 => ⟨S_, .f32⟩
  | 18 => ⟨S5500000, .f32⟩
  | 19 => ⟨S_, .f32⟩
  | 20 => ⟨S500000, .f32⟩
  | 21 => ⟨S5500000x1, .i32⟩
  | 22 => ⟨S500000, .f32⟩
  | 23 => ⟨S_, .f32⟩
  | 24 => ⟨S500000, .f32⟩
  | 25 => ⟨S500000, .i1⟩
  | 26 => ⟨S_, .f32⟩
  | 27 => ⟨S500000, .f32⟩
  | 28 => ⟨S500000, .f32⟩
  | 29 => ⟨S500000, .f32⟩
  | 30 => ⟨S_, .f32⟩
  | 31 => ⟨S_, .f32⟩
  | 32 => ⟨S500000, .f32⟩
  | 33 => ⟨S500000, .f32⟩
  | 34 => ⟨S_, .i32⟩
  | 35 => ⟨S5500000, .i32⟩
  | 36 => ⟨S5500000, .i1⟩
  | 37 => ⟨S_, .i32⟩
  | 38 => ⟨S5500000, .i32⟩
  | 39 => ⟨S5500000, .i32⟩
  | 40 => ⟨S5500000, .i32⟩
  | 41 => ⟨S5500000x1, .i32⟩
  | 42 => ⟨S5500000, .f32⟩
  | 43 => ⟨S_, .i32⟩
  | 44 => ⟨S5500000, .i32⟩
  | 45 => ⟨S5500000, .i1⟩
  | 46 => ⟨S_, .i32⟩
  | 47 => ⟨S5500000, .i32⟩
  | 48 => ⟨S5500000, .i32⟩
  | 49 => ⟨S5500000, .i32⟩
  | 50 => ⟨S5500000x1, .i32⟩
  | 51 => ⟨S5500000, .f32⟩
  | 52 => ⟨S5500000, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x16, .f32⟩
  | 62 => ⟨S500000x16, .f32⟩
  | 63 => ⟨S_, .i32⟩
  | 64 => ⟨S5500000, .i32⟩
  | 65 => ⟨S5500000, .i1⟩
  | 66 => ⟨S_, .i32⟩
  | 67 => ⟨S5500000, .i32⟩
  | 68 => ⟨S5500000, .i32⟩
  | 69 => ⟨S5500000, .i32⟩
  | 70 => ⟨S5500000x1, .i32⟩
  | 71 => ⟨S5500000x16, .f32⟩
  | 72 => ⟨S5500000x1, .f32⟩
  | 73 => ⟨S5500000x16, .f32⟩
  | 74 => ⟨S5500000x16, .f32⟩
  | 75 => ⟨S_, .f32⟩
  | 76 => ⟨S500000x16, .f32⟩
  | 77 => ⟨S5500000x1, .i32⟩
  | 78 => ⟨S500000x16, .f32⟩
  | 79 => ⟨S1x16, .f32⟩
  | 80 => ⟨S500000x16, .f32⟩
  | 81 => ⟨S500000x16, .f32⟩
  | 82 => ⟨S_, .f32⟩
  | 83 => ⟨S500000x16, .f32⟩
  | 84 => ⟨S500000x16, .f32⟩
  | 85 => ⟨S500000x16, .f32⟩
  | 86 => ⟨S_, .i32⟩
  | 87 => ⟨S5500000, .i32⟩
  | 88 => ⟨S5500000, .i1⟩
  | 89 => ⟨S_, .i32⟩
  | 90 => ⟨S5500000, .i32⟩
  | 91 => ⟨S5500000, .i32⟩
  | 92 => ⟨S5500000, .i32⟩
  | 93 => ⟨S5500000x1, .i32⟩
  | 94 => ⟨S5500000x16, .f32⟩
  | 95 => ⟨S5500000x1, .f32⟩
  | 96 => ⟨S5500000x16, .f32⟩
  | 97 => ⟨S5500000x16, .f32⟩
  | 98 => ⟨S_, .f32⟩
  | 99 => ⟨S500000x16, .f32⟩
  | 100 => ⟨S5500000x1, .i32⟩
  | 101 => ⟨S500000x16, .f32⟩
  | 102 => ⟨S1x16, .f32⟩
  | 103 => ⟨S500000x16, .f32⟩
  | 104 => ⟨S500000x16, .f32⟩
  | 105 => ⟨S1x2000000, .i32⟩
  | 106 => ⟨S2000000, .i32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000x16, .f32⟩
  | 116 => ⟨S1x2000000, .i32⟩
  | 117 => ⟨S2000000, .i32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S2000000x1, .i32⟩
  | 126 => ⟨S2000000x16, .f32⟩
  | 127 => ⟨S2000000x32, .f32⟩
  | _ => ⟨S500000, .i32⟩

abbrev hbmTy0_1 (i : Nat) : BufTy := match i % 128 with
  | 0 => ⟨S2000000x1, .f32⟩
  | 1 => ⟨S1x1, .f32⟩
  | 2 => ⟨S2000000x1, .f32⟩
  | 3 => ⟨S2000000x1, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_17 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S500000_S5500000_d0 : Shape.Concatenates [S5000000, S500000] S5500000 0
  slices_S2x5000000_S1x5000000_1_0 : S2x5000000.Slices ![1, 0] S1x5000000
  bcast_S_S5500000 : S_.BroadcastsInDim S5500000 (![] : Fin 0 → Fin S5500000.rank)
  bcast_S_S500000 : S_.BroadcastsInDim S500000 (![] : Fin 0 → Fin S500000.rank)
  bcast_S5500000_S5500000x1_0 : S5500000.BroadcastsInDim S5500000x1 (![0] : Fin 1 → Fin S5500000x1.rank)
  bcast_S500000_S500000x1_0 : S500000.BroadcastsInDim S500000x1 (![0] : Fin 1 → Fin S500000x1.rank)
  bcast_S5500000x1_S5500000x16_0_1 : S5500000x1.BroadcastsInDim S5500000x16 (![0, 1] : Fin 2 → Fin S5500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x16_S2000000x16_S2000000x32_d1 : Shape.Concatenates [S2000000x16, S2000000x16] S2000000x32 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  scatter_S500000_S5500000x1_S5500000_n_0_0_1_wf : ScatterDims.WF S500000 S5500000x1 S5500000 [] [0] [0] 1
  gather_S500000_S5500000x1_S5500000_n_0_n_n_0_1_1_wf : GatherDims.WF S500000 S5500000x1 S5500000 [] [0] [] [0] [] 1 ![1]
  gather_S500000x16_S500000x1_S500000x16_1_0_n_n_0_1_116_wf : GatherDims.WF S500000x16 S500000x1 S500000x16 [1] [0] [] [0] [] 1 ![1, 16]
  dot_S500000x16_S16x16_S500000x16_1_0_0_1_n_n_wf : DotDims.WF S500000x16 S16x16 S500000x16 [1] [0] [0] [1] [] []
  gather_S500000x16_S5500000x1_S5500000x16_1_0_n_n_0_1_116_wf : GatherDims.WF S500000x16 S5500000x1 S5500000x16 [1] [0] [] [0] [] 1 ![1, 16]
  scatter_S500000x16_S5500000x1_S5500000x16_1_0_0_1_wf : ScatterDims.WF S500000x16 S5500000x1 S5500000x16 [1] [0] [0] 1
  gather_S500000x16_S2000000x1_S2000000x16_1_0_n_n_0_1_116_wf : GatherDims.WF S500000x16 S2000000x1 S2000000x16 [1] [0] [] [0] [] 1 ![1, 16]
  dot_S2000000x32_S32x1_S2000000x1_1_0_0_1_n_n_wf : DotDims.WF S2000000x32 S32x1 S2000000x1 [1] [0] [0] [1] [] []

variable [Facts₀]

def scatter_S500000_S5500000x1_S5500000_n_0_0_1 : ScatterDims S500000 S5500000x1 S5500000 where
  updateWindowDims := []
  insertedWindowDims := [0]
  scatterDimsToOperandDims := [0]
  indexVectorDim := 1
  wf := scatter_S500000_S5500000x1_S5500000_n_0_0_1_wf
def gather_S500000_S5500000x1_S5500000_n_0_n_n_0_1_1 : GatherDims S500000 S5500000x1 S5500000 where
  offsetDims := []
  collapsedSliceDims := [0]
  operandBatchingDims := []
  startIndicesBatchingDims := []
  startIndexMap := [0]
  indexVectorDim := 1
  sliceSizes := ![1]
  wf := gather_S500000_S5500000x1_S5500000_n_0_n_n_0_1_1_wf
def gather_S500000x16_S500000x1_S500000x16_1_0_n_n_0_1_116 : GatherDims S500000x16 S500000x1 S500000x16 where
  offsetDims := [1]
  collapsedSliceDims := [0]
  operandBatchingDims := []
  startIndicesBatchingDims := []
  startIndexMap := [0]
  indexVectorDim := 1
  sliceSizes := ![1, 16]
  wf := gather_S500000x16_S500000x1_S500000x16_1_0_n_n_0_1_116_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def gather_S500000x16_S5500000x1_S5500000x16_1_0_n_n_0_1_116 : GatherDims S500000x16 S5500000x1 S5500000x16 where
  offsetDims := [1]
  collapsedSliceDims := [0]
  operandBatchingDims := []
  startIndicesBatchingDims := []
  startIndexMap := [0]
  indexVectorDim := 1
  sliceSizes := ![1, 16]
  wf := gather_S500000x16_S5500000x1_S5500000x16_1_0_n_n_0_1_116_wf
def scatter_S500000x16_S5500000x1_S5500000x16_1_0_0_1 : ScatterDims S500000x16 S5500000x1 S5500000x16 where
  updateWindowDims := [1]
  insertedWindowDims := [0]
  scatterDimsToOperandDims := [0]
  indexVectorDim := 1
  wf := scatter_S500000x16_S5500000x1_S5500000x16_1_0_0_1_wf
def gather_S500000x16_S2000000x1_S2000000x16_1_0_n_n_0_1_116 : GatherDims S500000x16 S2000000x1 S2000000x16 where
  offsetDims := [1]
  collapsedSliceDims := [0]
  operandBatchingDims := []
  startIndicesBatchingDims := []
  startIndexMap := [0]
  indexVectorDim := 1
  sliceSizes := ![1, 16]
  wf := gather_S500000x16_S2000000x1_S2000000x16_1_0_n_n_0_1_116_wf
def dot_S2000000x32_S32x1_S2000000x1_1_0_0_1_n_n : DotDims S2000000x32 S32x1 S2000000x1 where
  lhsContracting := [1]
  rhsContracting := [0]
  lhsNonContracting := [0]
  rhsNonContracting := [1]
  lhsBatch := []
  rhsBatch := []
  wf := dot_S2000000x32_S32x1_S2000000x1_1_0_0_1_n_n_wf

class Facts : Prop extends Facts₀ where

variable [Facts]
-- ==== Proof.KernelRun.lean ====
/-
  The kernel program's run with its result named.

  @main is eleven segments: five stretches of host operations and six kernel regions.  The run below is the one
  that proves the frame, read once more at the end: besides the argument arrays, the result array is read off the
  last boundary's buffer contents, the fold `W11` of the segments over the launch memory.
-/
import proofs.«121891_j50448685859415_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Result

end
-- ==== Proof.Spec.lean ====
/-
  The two programs' shared mathematics, stage by stage, as whole-array functions.

  A two-layer graph convolution followed by a link decoder.  From the edge list (two rows of node numbers) the
  programs build the source and target lists with one self-loop per node appended, count each node's in-degree
  `deg`, and set  dis = (deg > 0 ? rsqrt (max deg tiny) : 0)  and the edge weight  norm e = dis[src e] · dis[dst e].
  A layer sends  x ↦ Σ_{e : dst e = n} (x·W)[src e] · norm e + b ;  the first layer is followed by max(·, 0).
  The decoder reads the rows z[u], z[v] of the second layer's output at the two endpoints of each labelled edge,
  lays them side by side and contracts the 32 entries with a [32, 1] weight column, plus a bias.

  Every stage is spelt with the host operations of the reference program, so that the reference's composed result
  is this composition by unfolding, and each stretch of host operations of the kernel's program is a stage applied to
  what the stretch finds.
-/
import proofs.«121891_j50448685859415_2_alg».proof.Proof.Gen.ReferenceIdeal

noncomputable section

namespace Cert.Spec

open Cert.ReferenceIdeal Cert.ReferenceIdeal.Gen Idealize.ShloMosaic

variable {F : FTy → Type} [FloatOps F]

/-- An array of 32-bit floats of a shape. -/
abbrev FArr (F : FTy → Type) (s : Shape) : Type := (⟨s, .f32⟩ : BufTy).Contents (Elt F)
/-- An array of 32-bit integers of a shape. -/
abbrev IArr (F : FTy → Type) (s : Shape) : Type := (⟨s, .i32⟩ : BufTy).Contents (Elt F)

/-- Row r (0: sources, 1: targets) of the edge list followed by the node numbers 0 … N−1 (one self-loop per node). -/
def srcList (a1 : IArr F S2x5000000) : IArr F S5500000 :=
  concatenate S5500000 0 [⟨S5000000, (shapeCast _ (extractStridedSlice S1x5000000 ![0, 0] a1 slices_S2x5000000_S1x5000000_0_0) shapeCasts_S1x5000000_S5000000)⟩, ⟨S500000, (iotaInDim S500000 32 0)⟩] concatenates_S5000000_S500000_S5500000_d0
def dstList (a1 : IArr F S2x5000000) : IArr F S5500000 :=
  concatenate S5500000 0 [⟨S5000000, (shapeCast _ (extractStridedSlice S1x5000000 ![1, 0] a1 slices_S2x5000000_S1x5000000_1_0) shapeCasts_S1x5000000_S5000000)⟩, ⟨S500000, (iotaInDim S500000 32 0)⟩] concatenates_S5000000_S500000_S5500000_d0

/-- A list of node numbers as an index column, a negative number counted from the end. -/
def wrapCol (v : IArr F S5500000) : IArr F S5500000x1 :=
  broadcastInDim S5500000x1 ![0] bcast_S5500000_S5500000x1_0 (select (cmpi .slt v (broadcastInDim S5500000 ![] bcast_S_S5500000 (constantI S_ 32 0#32))) (addi v (broadcastInDim S5500000 ![] bcast_S_S5500000 (constantI S_ 32 500000#32))) v)

/-- The in-degree of every node: one unit per list entry, added at its target. -/
def deg (a1 : IArr F S2x5000000) : FArr F S500000 :=
  Host.scatterAdd scatter_S500000_S5500000x1_S5500000_n_0_0_1 (broadcastInDim S500000 ![] bcast_S_S500000 (constant S_ .f32 0x00000000#32)) (broadcastInDim S5500000x1 ![0] bcast_S5500000_S5500000x1_0 (dstList a1)) (broadcastInDim S5500000 ![] bcast_S_S5500000 (constant S_ .f32 0x3F800000#32))

/-- dis = (deg > 0 ? rsqrt (max deg tiny) : 0), entry by entry. -/
def disOf (d : FArr F S500000) : FArr F S500000 :=
  select (cmpf (F := F) .ogt d (broadcastInDim S500000 ![] bcast_S_S500000 (constant S_ .f32 0x00000000#32))) (Host.rsqrt (maximumf d (broadcastInDim S500000 ![] bcast_S_S500000 (constant S_ .f32 0x2B8CBCCC#32)))) (broadcastInDim S500000 ![] bcast_S_S500000 (id (constant S_ .f32 0x00000000#32)))

/-- The edge weights: dis at the source times dis at the target. -/
def normOf (dis : FArr F S500000) (a1 : IArr F S2x5000000) : FArr F S5500000 :=
  mulf (Host.gather gather_S500000_S5500000x1_S5500000_n_0_n_n_0_1_1 dis (wrapCol (srcList a1))) (Host.gather gather_S500000_S5500000x1_S5500000_n_0_n_n_0_1_1 dis (wrapCol (dstList a1)))

/-- The embedding rows of the nodes' feature numbers. -/
def embed (a0 : IArr F S500000) (a3 : FArr F S500000x16) : FArr F S500000x16 :=
  Host.gather gather_S500000x16_S500000x1_S500000x16_1_0_n_n_0_1_116 a3 (broadcastInDim S500000x1 ![0] bcast_S500000_S500000x1_0 (select (cmpi .slt a0 (broadcastInDim S500000 ![] bcast_S_S500000 (constantI S_ 32 0#32))) (addi a0 (broadcastInDim S500000 ![] bcast_S_S500000 (constantI S_ 32 500000#32))) a0))

/-- The product of the node features with a layer's weights. -/
def project (x : FArr F S500000x16) (w : FArr F S16x16) : FArr F S500000x16 :=
  Host.dotGeneral dot_S500000x16_S16x16_S500000x16_1_0_0_1_n_n none x w

/-- The weighted sum of the projected rows of each node's in-neighbours. -/
def aggregate (p : FArr F S500000x16) (norm : FArr F S5500000) (a1 : IArr F S2x5000000) : FArr F S500000x16 :=
  Host.scatterAdd scatter_S500000x16_S5500000x1_S5500000x16_1_0_0_1 (broadcastInDim S500000x16 ![] bcast_S_S500000x16 (constant S_ .f32 0x00000000#32)) (broadcastInDim S5500000x1 ![0] bcast_S5500000_S5500000x1_0 (dstList a1)) (mulf (Host.gather gather_S500000x16_S5500000x1_S5500000x16_1_0_n_n_0_1_116 p (wrapCol (srcList a1))) (broadcastInDim S5500000x16 ![0, 1] bcast_S5500000x1_S5500000x16_0_1 (broadcastInDim S5500000x1 ![0] bcast_S5500000_S5500000x1_0 norm)))

/-- A bias vector added to every row. -/
def addBias (x : FArr F S500000x16) (b : FArr F S16) : FArr F S500000x16 :=
  addf x (broadcastInDim S500000x16 ![0, 1] bcast_S1x16_S500000x16_0_1 (broadcastInDim S1x16 ![1] bcast_S16_S1x16_1 b))

/-- The maximum with zero, entry by entry. -/
def rectify (x : FArr F S500000x16) : FArr F S500000x16 :=
  maximumf x (broadcastInDim S500000x16 ![] bcast_S_S500000x16 (constant S_ .f32 0x00000000#32))

/-- The rows of z at endpoint r (0 or 1) of the labelled edges. -/
def endpoint0 (z : FArr F S500000x16) (a2 : IArr F S2x2000000) : FArr F S2000000x16 :=
  Host.gather gather_S500000x16_S2000000x1_S2000000x16_1_0_n_n_0_1_116 z (broadcastInDim S2000000x1 ![0] bcast_S2000000_S2000000x1_0 (select (cmpi .slt (shapeCast _ (extractStridedSlice S1x2000000 ![0, 0] a2 slices_S2x2000000_S1x2000000_0_0) shapeCasts_S1x2000000_S2000000) (broadcastInDim S2000000 ![] bcast_S_S2000000 (constantI S_ 32 0#32))) (addi (shapeCast _ (extractStridedSlice S1x2000000 ![0, 0] a2 slices_S2x2000000_S1x2000000_0_0) shapeCasts_S1x2000000_S2000000) (broadcastInDim S2000000 ![] bcast_S_S2000000 (constantI S_ 32 500000#32))) (shapeCast _ (extractStridedSlice S1x2000000 ![0, 0] a2 slices_S2x2000000_S1x2000000_0_0) shapeCasts_S1x2000000_S2000000)))
def endpoint1 (z : FArr F S500000x16) (a2 : IArr F S2x2000000) : FArr F S2000000x16 :=
  Host.gather gather_S500000x16_S2000000x1_S2000000x16_1_0_n_n_0_1_116 z (broadcastInDim S2000000x1 ![0] bcast_S2000000_S2000000x1_0 (select (cmpi .slt (shapeCast _ (extractStridedSlice S1x2000000 ![1, 0] a2 slices_S2x2000000_S1x2000000_1_0) shapeCasts_S1x2000000_S2000000) (broadcastInDim S2000000 ![] bcast_S_S2000000 (constantI S_ 32 0#32))) (addi (shapeCast _ (extractStridedSlice S1x2000000 ![1, 0] a2 slices_S2x2000000_S1x2000000_1_0) shapeCasts_S1x2000000_S2000000) (broadcastInDim S2000000 ![] bcast_S_S2000000 (constantI S_ 32 500000#32))) (shapeCast _ (extractStridedSlice S1x2000000 ![1, 0] a2 slices_S2x2000000_S1x2000000_1_0) shapeCasts_S1x2000000_S2000000)))

/-- The decoder: the two endpoint rows side by side, contracted with the weight column, plus the bias. -/
def decode (z0 z1 : FArr F S2000000x16) (a8 : FArr F S32x1) (a9 : FArr F S1) : FArr F S2000000x1 :=
  addf (Host.dotGeneral dot_S2000000x32_S32x1_S2000000x1_1_0_0_1_n_n none (concatenate S2000000x32 1 [⟨S2000000x16, z0⟩, ⟨S2000000x16, z1⟩] concatenates_S2000000x16_S2000000x16_S2000000x32_d1) a8) (broadcastInDim S2000000x1 ![0, 1] bcast_S1x1_S2000000x1_0_1 (broadcastInDim S1x1 ![1] bcast_S1_S1x1_1 a9))

/-- The first layer's output. -/
def hidden (a0 : IArr F S500000) (a1 : IArr F S2x5000000) (a3 : FArr F S500000x16) (a4 : FArr F S16x16) (a5 : FArr F S16) : FArr F S500000x16 :=
  rectify (addBias (aggregate (project (embed a0 a3) a4) (normOf (disOf (deg a1)) a1) a1) a5)

/-- The second layer's output. -/
def latent (a0 : IArr F S500000) (a1 : IArr F S2x5000000) (a3 : FArr F S500000x16) (a4 : FArr F S16x16) (a5 : FArr F S16)
    (a6 : FArr F S16x16) (a7 : FArr F S16) : FArr F S500000x16 :=
  addBias (aggregate (project (hidden a0 a1 a3 a4 a5) a6) (normOf (disOf (deg a1)) a1) a1) a7

/-- The whole computation. -/
def out (a0 : IArr F S500000) (a1 : IArr F S2x5000000) (a2 : IArr F S2x2000000) (a3 : FArr F S500000x16) (a4 : FArr F S16x16)
    (a5 : FArr F S16) (a6 : FArr F S16x16) (a7 : FArr F S16) (a8 : FArr F S32x1) (a9 : FArr F S1) : FArr F S2000000x1 :=
  decode (endpoint0 (latent a0 a1 a3 a4 a5 a6 a7) a2) (endpoint1 (latent a0 a1 a3 a4 a5 a6 a7) a2) a8 a9

end Cert.Spec

end
-- ==== Proof.Region0.lean ====
/-
  Region 0: the normalising factor of every node, computed in one piece.

  The one grid point loads the whole degree vector and stores, entry by entry,
  (deg > 0 ? rsqrt (max deg tiny) : 0).  The kernel's reciprocal square root and the host's are the same function
  of an extended real, so the stored vector is the specification's `disOf` of the degree vector, and the one block
  is the whole array.
-/
import proofs.«121891_j50448685859415_2_alg».proof.Proof.Gen.KernelIdeal.Frame
import proofs.«121891_j50448685859415_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a; rfl

/-- The body's stored value at an entry y: the specification's factor at the entry's place. -/
theorem pay_at (D : FVec Ideal S500000 .f32) (x0 : Vec Ideal S500000 .f32)
    (e0 eo : S500000.Idx → S500000.Idx) (hx0 : ∀ j, x0 j = D (e0 j)) (h0 : ∀ y, e0 y = eo y) (y : S500000.Idx) :
    k0_pay1 x0 y = Cert.Spec.disOf (F := Ideal) D (eo y) := by
  have hx : x0 y = D (eo y) := by rw [hx0, h0]
  have hs : ∀ (z : FVec Ideal Cert.ReferenceIdeal.S_ .f32) (i : Cert.ReferenceIdeal.S500000.Idx),
      broadcastInDim Cert.ReferenceIdeal.S500000 ![] Cert.ReferenceIdeal.Gen.bcast_S_S500000 z i = z ix0 :=
    fun z i => broadcastInDim_apply ![] _ z i ix0 (fun a => a.elim0)
  have e1 : k0_pay1 x0 y = Scalar.select (FloatOps.cmpf .ogt (x0 y) (Scalar.ofBits (F := Ideal) .f32 0x00000000#32))
      (Ideal.rsqrt (max (x0 y) (Scalar.ofBits (F := Ideal) .f32 0x2B8CBCCC#32))) (Scalar.ofBits (F := Ideal) .f32 0x00000000#32) := by
    unfold k0_pay1; rw [shapeCast_self]; rfl
  have e2 : Cert.Spec.disOf (F := Ideal) D (eo y)
      = Scalar.select (FloatOps.cmpf .ogt (D (eo y)) (Scalar.ofBits (F := Ideal) .f32 0x00000000#32))
        (Ideal.rsqrt (max (D (eo y)) (Scalar.ofBits (F := Ideal) .f32 0x2B8CBCCC#32))) (Scalar.ofBits (F := Ideal) .f32 0x00000000#32) := by
    unfold Cert.Spec.disOf
    have hr : ∀ (v : FVec Ideal Cert.ReferenceIdeal.S500000 .f32) (i : Cert.ReferenceIdeal.S500000.Idx),
        Host.rsqrt v i = Ideal.rsqrt (v i) := fun _ _ => rfl
    rw [select_apply, cmpf_apply, hr, maximumf_apply, hs, hs, hs]; rfl
  rw [e1, e2, hx]

/-- The printed index maps at the one grid point: both blocks are the whole vector. -/
theorem idx_facts : ∀ t : Fin cfg0.N, win0_0.index t (0 : Fin 1) = 0 ∧ win0_1.index t (0 : Fin 1) = 0 :=
  (by decide +kernel : ∀ t : Fin grid0.N, _)

variable (V : (c : Dev nD) → (b : Ref sig .tc) → Buf (Elt Ideal) ((c : Thread nD τ).loc b))

/-- What the grid point writes back is the block of the specification's factor of the degree vector the region finds. -/
theorem flushed_eq (c : Dev nD) (t : Fin cfg0.N) :
    (dat0 V c).flushed 1 t = ((cfg0.win 1).blk t).view.read (Elt Ideal) (Cert.Spec.disOf (F := Ideal) (V c main_v10)) := by
  show (cfg0.win 1).cut (grid0.coords t) ((dat0 V c).after 1 t) = _
  rw [after0_1]
  unfold out0_1
  rw [View.canon_unit_zero hz1]
  simp only [View.ld_unit_zero (S := S500000) hz1]
  obtain ⟨e0, e1⟩ := idx_facts t
  funext j
  refine pay_at (V c main_v10) (iblk0 V c 0 t) ((cfg0.win 0).blk t).view.emb ((cfg0.win 1).blk t).view.emb
    (fun _ => rfl) ?_ j
  intro y
  funext a; apply Fin.ext
  match a with
  | ⟨0, _⟩ => show win0_0.index t (0 : Fin 1) * 500000 + 1 * (y 0).val = win0_1.index t (0 : Fin 1) * 500000 + 1 * (y 0).val; omega

/-- Every index of the output vector is in the one block. -/
theorem mem_blk (t : Fin cfg0.N) (i : S500000.Idx) :
    i ∈ ((cfg0.win 1).blk t).view.set ↔ ∀ a : Fin 1, win0_1.index t a * S500000.size a ≤ (i a).val ∧ (i a).val < win0_1.index t a * S500000.size a + S500000.size a := by
  show i ∈ ((View.whole main_v11).slice (win0_1.rect t)).set ↔ _
  rw [View.set_slice_whole, Rect.mem_set_unit]
  exact Iff.rfl

theorem cover (i : S500000.Idx) :
    ∃ t : Fin cfg0.N, (cfg0.win 1).flush t = true ∧ i ∈ ((cfg0.win 1).blk t).view.set := by
  have hi0 : (i 0).val < 500000 := (i 0).isLt
  obtain ⟨e0, e1⟩ := idx_facts t0_0
  refine ⟨t0_0, flush0_1 t0_0, ?_⟩
  rw [mem_blk]
  intro a
  match a with
  | ⟨0, _⟩ => show win0_1.index t0_0 (0 : Fin 1) * 500000 ≤ (i 0).val ∧ (i 0).val < win0_1.index t0_0 (0 : Fin 1) * 500000 + 500000; omega

/-- THE OUTPUT VECTOR after the region: the specification's factor of the degree vector the region finds. -/
theorem final (c : Dev nD) :
    (dat0 V c).arrAt 1 cfg0.N = Cert.Spec.disOf (F := Ideal) (V c main_v10) :=
  (dat0 V c).arrAt_eq_of_cover 1 _ (fun t _ => flushed_eq V c t) cover

end Cert.KernelIdeal.Region0

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«121891_j50448685859415_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.Region1.lean ====
/-
  Region 1: a product of the node features with a 16 × 16 weight matrix, 5000 rows at a time.

  Grid point t loads rows 5000·t … 5000·t + 4999 of the [500000, 16] left operand and the whole weight matrix,
  narrows both (the identity on the extended reals), multiplies into a zero accumulator and stores the 5000 × 16
  result as block t of the output.  Row r of a product depends on row r of the left operand only, so block t of
  the output is block t of the whole product, and the hundred blocks tile the array.
-/
import proofs.«121891_j50448685859415_2_alg».proof.Proof.Gen.KernelIdeal.Frame
import proofs.«121891_j50448685859415_2_alg».proof.Proof.Spec
import proofs.«121891_j50448685859415_2_alg».proof.Proof.LibRowBlocks
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PlainDot Cert.Bridge

theorem hz : (![0, 0] : Fin 2 → Nat) = fun _ => 0 := funext fun a => by fin_cases a <;> rfl

/-- The body's stored value at an entry y of the block: the whole product at the entry's place in the array. -/
theorem pay_at (X : FVec Ideal S500000x16 .f32) (W : FVec Ideal S16x16 .f32)
    (x0 : Vec Ideal S5000x16 .f32) (x1 : Vec Ideal S16x16 .f32)
    (e0 : S5000x16.Idx → S500000x16.Idx) (e1 : S16x16.Idx → S16x16.Idx) (eo : S5000x16.Idx → S500000x16.Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : S5000x16.Idx) :
    k1_pay1 x0 x1 y = Cert.Spec.project (F := Ideal) X W (eo y) := by
  unfold k1_pay1 Cert.Spec.project
  exact dot_block dot_S5000x16_S16x16_S5000x16_1_0_0_1_n_n rfl
    Cert.ReferenceIdeal.dot_S500000x16_S16x16_S500000x16_1_0_0_1_n_n rfl none none X W _ _ e0 e1 eo
    (fun j => by rw [truncf_apply, shapeCast_self]; exact hx0 j) (fun j => by rw [truncf_apply]; exact hx1 j) h0 h1 y

/-- The printed index maps over the grid: the left operand's and the output's blocks are the t-th row blocks, the
    weights' block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the whole product of the arrays the region finds. -/
theorem flushed_eq (c : Dev nD) (t : Fin cfg1.N) :
    (dat1 V c).flushed 2 t = ((cfg1.win 2).blk t).view.read (Elt Ideal)
      (Cert.Spec.project (F := Ideal) (V c main_v33) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x16) hz]
  obtain ⟨e0, e1, e2, e3, e4, e5⟩ := idx_facts t
  funext j
  refine pay_at (V c main_v33) (V c main_arg4) (iblk1 V c 0 t) (iblk1 V c 1 t)
    ((cfg1.win 0).blk t).view.emb ((cfg1.win 1).blk t).view.emb ((cfg1.win 2).blk t).view.emb
    (fun _ => rfl) (fun _ => rfl) ?_ ?_ j
  · intro y k
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 16 + 1 * k.val = k.val; omega
  · intro y k
    funext a; apply Fin.ext
    match a with
    | ⟨0, _⟩ => show win1_1.index t (0 : Fin 2) * 16 + 1 * k.val = k.val; omega
    | ⟨1, _⟩ => show win1_1.index t (1 : Fin 2) * 16 + 1 * (y 1).val = win1_2.index t (1 : Fin 2) * 16 + 1 * (y 1).val; omega

/-- An index of the output array is in point t's block iff its row is one of the block's 5000 rows. -/
theorem mem_blk (t : Fin cfg1.N) (i : S500000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v34).slice (win1_2.rect t)).set ↔ _
  rw [View.set_slice_whole, Rect.mem_set_unit]
  exact Iff.rfl

/-- The hundred blocks tile the output: row r lies in block r / 5000. -/
theorem cover (i : S500000x16.Idx) :
    ∃ t : Fin cfg1.N, (cfg1.win 2).flush t = true ∧ i ∈ ((cfg1.win 2).blk t).view.set := by
  have hi0 : (i 0).val < 500000 := (i 0).isLt
  have hi1 : (i 1).val < 16 := (i 1).isLt
  have hN : grid1.N = 100 := N_1
  let t : Fin cfg1.N := ⟨(i 0).val / 5000, by show (i 0).val / 5000 < grid1.N; rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- THE OUTPUT ARRAY after the region: the whole product of the two arrays the region finds. -/
theorem final (c : Dev nD) :
    (dat1 V c).arrAt 2 cfg1.N = Cert.Spec.project (F := Ideal) (V c main_v33) (V c main_arg4) :=
  (dat1 V c).arrAt_eq_of_cover 2 _ (fun t _ => flushed_eq V c t) cover

end Cert.KernelIdeal.Region1

end
-- ==== Proof.LibRowBias.lean ====
/-
  A one-row bias added to a block of rows, at the ideal values.

  An [N, C] array is cut into blocks of R consecutive rows.  A kernel adds a [1, C] bias row, stretched over the
  block's R rows, to a block; the host adds the same row, stretched over all N rows, to the whole array.  Read at an
  entry y of the block the two agree with the whole-array sum read where y sits in the array — and so does the sum
  followed by a maximum with a constant.  The embeddings of block entries into array entries are abstract maps with
  the index equations a row block satisfies.  Symbolic extents R, N, C.
-/
import Idealize.ShloMosaic.PureOps.Ideal.Laws
import Idealize.ShloMosaic.Lib.ValueIdx
import Idealize.ShloMosaic.Lib.Pipeline.Value
import proofs.«121891_j50448685859415_2_alg».proof.Proof.LibRowBlocks

noncomputable section

namespace Cert.Lib.RowBias

open Idealize.ShloMosaic Idealize.ShloMosaic.ValueIdx Cert.Bridge

variable {R N C : Nat}

/-- THE SUM of a row block and a one-row bias stretched over its rows, against the host's sum on the whole array. -/
theorem addRow_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf x0 (broadcastTo ⟨2, ![R, C]⟩ x2 hb) y = addf A (broadcastInDim ⟨2, ![N, C]⟩ ![0, 1] hB B) (eo y) := by
  rw [addf_apply, addf_apply, stretchRow_apply, hostStretchRow_apply, hx0, hx2, h0, h2]

/-- THE SUM FOLLOWED BY A MAXIMUM with a constant, block against whole array. -/
theorem addRowMax_block (A : FVec Ideal ⟨2, ![N, C]⟩ .f32) (B : FVec Ideal ⟨2, ![1, C]⟩ .f32)
    (x0 : FVec Ideal ⟨2, ![R, C]⟩ .f32) (x2 : FVec Ideal ⟨2, ![1, C]⟩ .f32)
    (e0 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx2 : ∀ j, x2 j = B (e2 j))
    (h0 : ∀ y, e0 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf x0 (broadcastTo ⟨2, ![R, C]⟩ x2 hb)) (broadcast ⟨2, ![R, C]⟩ (Scalar.ofBits (F := Ideal) .f32 z)) y
      = maximumf (addf A (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addRow_block A B x0 x2 e0 e2 eo hx0 hx2 h0 h2 hb hB y, hostSplat_apply]
  rfl

end Cert.Lib.RowBias

end
-- ==== Proof.Region2.lean ====
/-
  Region 2: a bias vector added to every row, followed by the maximum with zero, 5000 rows at a time.

  Grid point t loads rows 5000·t … 5000·t + 4999 of the [500000, 16] array and the whole 16-entry bias, lays the bias
  out as one row, stretches it down the 5000 rows, adds, takes the maximum with zero and stores the result as block t of the output.
  Each entry depends on the same entry of the array and on the bias entry of its column only, so block t of the
  output is block t of the whole-array computation, and the hundred blocks tile the array.
-/
import proofs.«121891_j50448685859415_2_alg».proof.Proof.Gen.KernelIdeal.Frame
import proofs.«121891_j50448685859415_2_alg».proof.Proof.Spec
import proofs.«121891_j50448685859415_2_alg».proof.Proof.LibRowBias
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PlainDot Cert.Bridge

theorem hz : (![0, 0] : Fin 2 → Nat) = fun _ => 0 := funext fun a => by fin_cases a <;> rfl
theorem hz1 : (![0] : Fin 1 → Nat) = fun _ => 0 := funext fun a => by fin_cases a; rfl

/-- The body's stored value at an entry y of the block: the whole-array computation at the entry's place. -/
theorem pay_at (A : FVec Ideal S500000x16 .f32) (b : FVec Ideal S16 .f32)
    (x0 : Vec Ideal S5000x16 .f32) (x1 : Vec Ideal S16 .f32)
    (e0 eo : S5000x16.Idx → S500000x16.Idx)
    (hx0 : ∀ j, x0 j = A (e0 j)) (hx1 : ∀ j, x1 j = b j)
    (h0 : ∀ y, e0 y = eo y) (h2 : ∀ y, (rowZero y : (⟨2, ![1, 16]⟩ : Shape).Idx) = rowZero (eo y))
    (y : S5000x16.Idx) :
    k2_pay1 x0 x1 y = Cert.Spec.rectify (F := Ideal) (Cert.Spec.addBias (F := Ideal) A b) (eo y) := by
  have hb : (x1 : S16.Idx → EReal) = b := funext hx1
  unfold k2_pay1 Cert.Spec.rectify Cert.Spec.addBias
  exact Cert.Lib.RowBias.addRowMax_block A
    (broadcastInDim Cert.ReferenceIdeal.S1x16 ![1] Cert.ReferenceIdeal.Gen.bcast_S16_S1x16_1 b)
    (shapeCast S5000x16 x0 shapeCasts_S5000x16_S5000x16) (shapeCast S1x16 x1 shapeCasts_S16_S1x16) e0 id eo
    (fun j => by rw [shapeCast_self]; exact hx0 j)
    (fun j => by rw [hb, reshapeRow_eq b shapeCasts_S16_S1x16 Cert.ReferenceIdeal.Gen.bcast_S16_S1x16_1]; rfl)
    h0 h2 _ Cert.ReferenceIdeal.Gen.bcast_S1x16_S500000x16_0_1 Cert.ReferenceIdeal.Gen.bcast_S_S500000x16 0x00000000#32 y

/-- The printed index maps over the grid: the array's and the output's blocks are the t-th row blocks, the bias's
    block is the whole vector. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole-array computation on the arrays the region finds. -/
theorem flushed_eq (c : Dev nD) (t : Fin cfg2.N) :
    (dat2 V c).flushed 2 t = ((cfg2.win 2).blk t).view.read (Elt Ideal)
      (Cert.Spec.rectify (F := Ideal) (Cert.Spec.addBias (F := Ideal) (V c main_v47) (V c main_arg5))) := by
  show (cfg2.win 2).cut (grid2.coords t) ((dat2 V c).after 2 t) = _
  rw [after2_2]
  unfold out2_2
  rw [View.canon_unit_zero hz]
  simp only [View.ld_unit_zero (S := S5000x16) hz, View.ld_unit_zero (S := S16) hz1]
  obtain ⟨e0, e1, e2, e3, e4⟩ := idx_facts t
  funext j
  refine pay_at (V c main_v47) (V c main_arg5) (iblk2 V c 0 t) (iblk2 V c 1 t)
    ((cfg2.win 0).blk t).view.emb ((cfg2.win 2).blk t).view.emb
    (fun _ => rfl) ?_ ?_ ?_ j
  · intro q
    show V c main_arg5 (((cfg2.win 1).blk t).view.emb q) = V c main_arg5 q
    refine congrArg (V c main_arg5) ?_
    funext a; apply Fin.ext
    match a with
    | ⟨0, _⟩ => show win2_1.index t (0 : Fin 1) * 16 + 1 * (q 0).val = (q 0).val; omega
  · intro y
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 16 + 1 * (y 1).val = win2_2.index t (1 : Fin 2) * 16 + 1 * (y 1).val; omega
  · intro y
    funext a; apply Fin.ext
    match a with
    | ⟨0, _⟩ => rfl
    | ⟨1, _⟩ => show (y 1).val = win2_2.index t (1 : Fin 2) * 16 + 1 * (y 1).val; omega

/-- An index of the output array is in point t's block iff its row is one of the block's 5000 rows. -/
theorem mem_blk (t : Fin cfg2.N) (i : S500000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v48).slice (win2_2.rect t)).set ↔ _
  rw [View.set_slice_whole, Rect.mem_set_unit]
  exact Iff.rfl

/-- The hundred blocks tile the output: row r lies in block r / 5000. -/
theorem cover (i : S500000x16.Idx) :
    ∃ t : Fin cfg2.N, (cfg2.win 2).flush t = true ∧ i ∈ ((cfg2.win 2).blk t).view.set := by
  have hi0 : (i 0).val < 500000 := (i 0).isLt
  have hi1 : (i 1).val < 16 := (i 1).isLt
  have hN : grid2.N = 100 := N_2
  let t : Fin cfg2.N := ⟨(i 0).val / 5000, by show (i 0).val / 5000 < grid2.N; rw [hN]; omega⟩
  obtain ⟨e0, e1, e2, e3, e4⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- THE OUTPUT ARRAY after the region: the whole-array computation on the two arrays the region finds. -/
theorem final (c : Dev nD) :
    (dat2 V c).arrAt 2 cfg2.N = Cert.Spec.rectify (F := Ideal) (Cert.Spec.addBias (F := Ideal) (V c main_v47) (V c main_arg5)) :=
  (dat2 V c).arrAt_eq_of_cover 2 _ (fun t _ => flushed_eq V c t) cover

end Cert.KernelIdeal.Region2

end
-- ==== Proof.Region3.lean ====
/-
  Region 3: a product of the node features with a 16 × 16 weight matrix, 5000 rows at a time.

  Grid point t loads rows 5000·t … 5000·t + 4999 of the [500000, 16] left operand and the whole weight matrix,
  narrows both (the identity on the extended reals), multiplies into a zero accumulator and stores the 5000 × 16
  result as block t of the output.  Row r of a product depends on row r of the left operand only, so block t of
  the output is block t of the whole product, and the hundred blocks tile the array.
-/
import proofs.«121891_j50448685859415_2_alg».proof.Proof.Gen.KernelIdeal.Frame
import proofs.«121891_j50448685859415_2_alg».proof.Proof.Spec
import proofs.«121891_j50448685859415_2_alg».proof.Proof.LibRowBlocks
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PlainDot Cert.Bridge

theorem hz : (![0, 0] : Fin 2 → Nat) = fun _ => 0 := funext fun a => by fin_cases a <;> rfl

/-- The body's stored value at an entry y of the block: the whole product at the entry's place in the array. -/
theorem pay_at (X : FVec Ideal S500000x16 .f32) (W : FVec Ideal S16x16 .f32)
    (x0 : Vec Ideal S5000x16 .f32) (x1 : Vec Ideal S16x16 .f32)
    (e0 : S5000x16.Idx → S500000x16.Idx) (e1 : S16x16.Idx → S16x16.Idx) (eo : S5000x16.Idx → S500000x16.Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : S5000x16.Idx) :
    k3_pay1 x0 x1 y = Cert.Spec.project (F := Ideal) X W (eo y) := by
  unfold k3_pay1 Cert.Spec.project
  exact dot_block dot_S5000x16_S16x16_S5000x16_1_0_0_1_n_n rfl
    Cert.ReferenceIdeal.dot_S500000x16_S16x16_S500000x16_1_0_0_1_n_n rfl none none X W _ _ e0 e1 eo
    (fun j => by rw [truncf_apply, shapeCast_self]; exact hx0 j) (fun j => by rw [truncf_apply]; exact hx1 j) h0 h1 y

/-- The printed index maps over the grid: the left operand's and the output's blocks are the t-th row blocks, the
    weights' block is the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What grid point t writes back is block t of the whole product of the arrays the region finds. -/
theorem flushed_eq (c : Dev nD) (t : Fin cfg3.N) :
    (dat3 V c).flushed 2 t = ((cfg3.win 2).blk t).view.read (Elt Ideal)
      (Cert.Spec.project (F := Ideal) (V c main_v48) (V c main_arg6)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x16) hz]
  obtain ⟨e0, e1, e2, e3, e4, e5⟩ := idx_facts t
  funext j
  refine pay_at (V c main_v48) (V c main_arg6) (iblk3 V c 0 t) (iblk3 V c 1 t)
    ((cfg3.win 0).blk t).view.emb ((cfg3.win 1).blk t).view.emb ((cfg3.win 2).blk t).view.emb
    (fun _ => rfl) (fun _ => rfl) ?_ ?_ j
  · intro y k
    funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 16 + 1 * k.val = k.val; omega
  · intro y k
    funext a; apply Fin.ext
    match a with
    | ⟨0, _⟩ => show win3_1.index t (0 : Fin 2) * 16 + 1 * k.val = k.val; omega
    | ⟨1, _⟩ => show win3_1.index t (1 : Fin 2) * 16 + 1 * (y 1).val = win3_2.index t (1 : Fin 2) * 16 + 1 * (y 1).val; omega

/-- An index of the output array is in point t's block iff its row is one of the block's 5000 rows. -/
theorem mem_blk (t : Fin cfg3.N) (i : S500000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v49).slice (win3_2.rect t)).set ↔ _
  rw [View.set_slice_whole, Rect.mem_set_unit]
  exact Iff.rfl

/-- The hundred blocks tile the output: row r lies in block r / 5000. -/
theorem cover (i : S500000x16.Idx) :
    ∃ t : Fin cfg3.N, (cfg3.win 2).flush t = true ∧ i ∈ ((cfg3.win 2).blk t).view.set := by
  have hi0 : (i 0).val < 500000 := (i 0).isLt
  have hi1 : (i 1).val < 16 := (i 1).isLt
  have hN : grid3.N = 100 := N_3
  let t : Fin cfg3.N := ⟨(i 0).val / 5000, by show (i 0).val / 5000 < grid3.N; rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- THE OUTPUT ARRAY after the region: the whole product of the two arrays the region finds. -/
theorem final (c : Dev nD) :
    (dat3 V c).arrAt 2 cfg3.N = Cert.Spec.project (F := Ideal) (V c main_v48) (V c main_arg6) :=
  (dat3 V c).arrAt_eq_of_cover 2 _ (fun t _ => flushed_eq V c t) cover

end Cert.KernelIdeal.Region3

end
-- ==== Proof.Region4.lean ====
/-
  Region 4: a bias vector added to every row 5000 rows at a time.

  Grid point t loads rows 5000·t … 5000·t + 4999 of the [500000, 16] array and the whole 16-entry bias, lays the bias
  out as one row, stretches it down the 5000 rows, adds and stores the result as block t of the output.
  Each entry depends on the same entry of the array and on the bias entry of its column only, so block t of the
  output is block t of the whole-array computation, and the hundred blocks tile the array.
-/
import proofs.«121891_j50448685859415_2_alg».proof.Proof.Gen.KernelIdeal.Frame
import proofs.«121891_j50448685859415_2_alg».proof.Proof.Spec
import proofs.«121891_j50448685859415_2_alg».proof.Proof.LibRowBias
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PlainDot Cert.Bridge

theorem hz : (![0, 0] : Fin 2 → Nat) = fun _ => 0 := funext fun a => by fin_cases a <;> rfl
theorem hz1 : (![0] : Fin 1 → Nat) = fun _ => 0 := funext fun a => by fin_cases a; rfl

/-- The body's stored value at an entry y of the block: the whole-array computation at the entry's place. -/
theorem pay_at (A : FVec Ideal S500000x16 .f32) (b : FVec Ideal S16 .f32)
    (x0 : Vec Ideal S5000x16 .f32) (x1 : Vec Ideal S16 .f32)
    (e0 eo : S5000x16.Idx → S500000x16.Idx)
    (hx0 : ∀ j, x0 j = A (e0 j)) (hx1 : ∀ j, x1 j = b j)
    (h0 : ∀ y, e0 y = eo y) (h2 : ∀ y, (rowZero y : (⟨2, ![1, 16]⟩ : Shape).Idx) = rowZero (eo y))
    (y : S5000x16.Idx) :
    k4_pay1 x0 x1 y = Cert.Spec.addBias (F := Ideal) A b (eo y) := by
  have hb : (x1 : S16.Idx → EReal) = b := funext hx1
  unfold k4_pay1 Cert.Spec.addBias
  exact Cert.Lib.RowBias.addRow_block A
    (broadcastInDim Cert.ReferenceIdeal.S1x16 ![1] Cert.ReferenceIdeal.Gen.bcast_S16_S1x16_1 b)
    (shapeCast S5000x16 x0 shapeCasts_S5000x16_S5000x16) (shapeCast S1x16 x1 shapeCasts_S16_S1x16) e0 id eo
    (fun j => by rw [shapeCast_self]; exact hx0 j)
    (fun j => by rw [hb, reshapeRow_eq b shapeCasts_S16_S1x16 Cert.ReferenceIdeal.Gen.bcast_S16_S1x16_1]; rfl)
    h0 h2 _ Cert.ReferenceIdeal.Gen.bcast_S1x16_S500000x16_0_1 y

/-- The printed index maps over the grid: the array's and the output's blocks are the t-th row blocks, the bias's
    block is the whole vector. -/
theorem idx_facts : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of the whole-array computation on the arrays the region finds. -/
theorem flushed_eq (c : Dev nD) (t : Fin cfg4.N) :
    (dat4 V c).flushed 2 t = ((cfg4.win 2).blk t).view.read (Elt Ideal)
      (Cert.Spec.addBias (F := Ideal) (V c main_v62) (V c main_arg7)) := by
  show (cfg4.win 2).cut (grid4.coords t) ((dat4 V c).after 2 t) = _
  rw [after4_2]
  unfold out4_2
  rw [View.canon_unit_zero hz]
  simp only [View.ld_unit_zero (S := S5000x16) hz, View.ld_unit_zero (S := S16) hz1]
  obtain ⟨e0, e1, e2, e3, e4⟩ := idx_facts t
  funext j
  refine pay_at (V c main_v62) (V c main_arg7) (iblk4 V c 0 t) (iblk4 V c 1 t)
    ((cfg4.win 0).blk t).view.emb ((cfg4.win 2).blk t).view.emb
    (fun _ => rfl) ?_ ?_ ?_ j
  · intro q
    show V c main_arg7 (((cfg4.win 1).blk t).view.emb q) = V c main_arg7 q
    refine congrArg (V c main_arg7) ?_
    funext a; apply Fin.ext
    match a with
    | ⟨0, _⟩ => show win4_1.index t (0 : Fin 1) * 16 + 1 * (q 0).val = (q 0).val; omega
  · intro y
    funext a; apply Fin.ext
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 16 + 1 * (y 1).val = win4_2.index t (1 : Fin 2) * 16 + 1 * (y 1).val; omega
  · intro y
    funext a; apply Fin.ext
    match a with
    | ⟨0, _⟩ => rfl
    | ⟨1, _⟩ => show (y 1).val = win4_2.index t (1 : Fin 2) * 16 + 1 * (y 1).val; omega

/-- An index of the output array is in point t's block iff its row is one of the block's 5000 rows. -/
theorem mem_blk (t : Fin cfg4.N) (i : S500000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v63).slice (win4_2.rect t)).set ↔ _
  rw [View.set_slice_whole, Rect.mem_set_unit]
  exact Iff.rfl

/-- The hundred blocks tile the output: row r lies in block r / 5000. -/
theorem cover (i : S500000x16.Idx) :
    ∃ t : Fin cfg4.N, (cfg4.win 2).flush t = true ∧ i ∈ ((cfg4.win 2).blk t).view.set := by
  have hi0 : (i 0).val < 500000 := (i 0).isLt
  have hi1 : (i 1).val < 16 := (i 1).isLt
  have hN : grid4.N = 100 := N_4
  let t : Fin cfg4.N := ⟨(i 0).val / 5000, by show (i 0).val / 5000 < grid4.N; rw [hN]; omega⟩
  obtain ⟨e0, e1, e2, e3, e4⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- THE OUTPUT ARRAY after the region: the whole-array computation on the two arrays the region finds. -/
theorem final (c : Dev nD) :
    (dat4 V c).arrAt 2 cfg4.N = Cert.Spec.addBias (F := Ideal) (V c main_v62) (V c main_arg7) :=
  (dat4 V c).arrAt_eq_of_cover 2 _ (fun t _ => flushed_eq V c t) cover

end Cert.KernelIdeal.Region4

end
-- ==== Proof.Decode.lean ====
/-
  The link decoder, two ways, on whole arrays.

  The kernel contracts the two endpoint rows separately, each with its own half of the 32-entry weight column, and
  adds the two results; the reference lays the rows side by side and contracts all 32 entries at once.  A sum over
  32 positions is the sum over the first 16 plus the sum over the last 16 — addition of extended reals is
  commutative and associative, so nothing needs to be finite —, the joined row holds the first endpoint's row
  below position 16 and the second's from there on, and the weight column's halves are its slices at 0 and at 16.
-/
import proofs.«121891_j50448685859415_2_alg».proof.Proof.Spec
import proofs.«121891_j50448685859415_2_alg».proof.Proof.LibRowBlocks
import Idealize.ShloMosaic.Lib.Pipeline.Value
import Idealize.ShloMosaic.Lib.ValueIdx

noncomputable section

namespace Cert.Decode

open Cert.ReferenceIdeal Cert.ReferenceIdeal.Gen
open Idealize.ShloMosaic Idealize.ShloMosaic.ValueIdx Cert.Lib.PlainDot Cert.Bridge
open scoped BigOperators

/-- The decoder as the kernel computes it: two 16-entry contractions added, plus the bias. -/
def decodeK (z0 z1 : FVec Ideal S2000000x16 .f32) (w0 w1 : FVec Ideal ⟨2, ![16, 1]⟩ .f32) (b : FVec Ideal S1 .f32) :
    FVec Ideal S2000000x1 .f32 :=
  addf (addf (Host.dotGeneral (DotDims.plain 2000000 16 1) none z0 w0) (Host.dotGeneral (DotDims.plain 2000000 16 1) none z1 w1))
    (broadcastInDim S2000000x1 ![0, 1] bcast_S1x1_S2000000x1_0_1 (broadcastInDim S1x1 ![1] bcast_S1_S1x1_1 b))

/-- The two half contractions add up to the contraction of the joined rows with the whole weight column. -/
theorem halves (z0 z1 : FVec Ideal S2000000x16 .f32) (a8 : FVec Ideal S32x1 .f32)
    (h0 : S32x1.Slices ![0, 0] ⟨2, ![16, 1]⟩) (h16 : S32x1.Slices ![16, 0] ⟨2, ![16, 1]⟩) (i : S2000000x1.Idx) :
    Host.dotGeneral (DotDims.plain 2000000 16 1) none z0 (extractStridedSlice ⟨2, ![16, 1]⟩ ![0, 0] a8 h0) i
      + Host.dotGeneral (DotDims.plain 2000000 16 1) none z1 (extractStridedSlice ⟨2, ![16, 1]⟩ ![16, 0] a8 h16) i
    = Host.dotGeneral dot_S2000000x32_S32x1_S2000000x1_1_0_0_1_n_n none
        (concatenate S2000000x32 1 [⟨S2000000x16, z0⟩, ⟨S2000000x16, z1⟩] concatenates_S2000000x16_S2000000x16_S2000000x32_d1) a8 i := by
  simp only [Host.dotGeneral]
  rw [dotGeneral_apply (DotDims.plain 2000000 16 1) rfl none _ z0, dotGeneral_apply (DotDims.plain 2000000 16 1) rfl none _ z1,
    dotGeneral_apply dot_S2000000x32_S32x1_S2000000x1_1_0_0_1_n_n rfl]
  unfold mm
  refine Eq.trans ?_ (Fin.sum_univ_add (a := 16) (b := 16) (fun k =>
    concatenate S2000000x32 1 [⟨S2000000x16, z0⟩, ⟨S2000000x16, z1⟩] concatenates_S2000000x16_S2000000x16_S2000000x32_d1 (rowIdx i k)
      * a8 (colIdx i k))).symm
  congr 1
  · refine Finset.sum_congr rfl fun k _ => ?_
    have hJ : concatenate S2000000x32 1 [⟨S2000000x16, z0⟩, ⟨S2000000x16, z1⟩] concatenates_S2000000x16_S2000000x16_S2000000x32_d1
        (rowIdx i (Fin.castAdd 16 k)) = z0 (rowIdx i k) :=
      concatenate_pair_apply_left (t := S2000000x32) (1 : Fin 2) z0 z1 concatenates_S2000000x16_S2000000x16_S2000000x32_d1
        (rowIdx i (Fin.castAdd 16 k)) rfl (rowIdx i k)
        (fun b => match b with | ⟨0, _⟩ => rfl | ⟨1, _⟩ => rfl)
    have hW : extractStridedSlice ⟨2, ![16, 1]⟩ ![0, 0] a8 h0 (colIdx i k) = a8 (colIdx i (Fin.castAdd 16 k)) :=
      extractStridedSlice_apply ![0, 0] a8 h0 (colIdx i k) (colIdx i (Fin.castAdd 16 k)) (fun a => match a with
        | ⟨0, _⟩ => by show k.val = 0 + k.val; omega
        | ⟨1, _⟩ => by show (i 1).val = 0 + (i 1).val; omega)
    beta_reduce
    rw [hJ, hW]
  · refine Finset.sum_congr rfl fun k _ => ?_
    have hJ : concatenate S2000000x32 1 [⟨S2000000x16, z0⟩, ⟨S2000000x16, z1⟩] concatenates_S2000000x16_S2000000x16_S2000000x32_d1
        (rowIdx i (Fin.natAdd 16 k)) = z1 (rowIdx i k) :=
      concatenate_pair_apply_right (t := S2000000x32) (1 : Fin 2) z0 z1 concatenates_S2000000x16_S2000000x16_S2000000x32_d1
        (rowIdx i (Fin.natAdd 16 k)) rfl rfl (rowIdx i k)
        (fun b hb => match b, hb with | ⟨0, _⟩, _ => rfl | ⟨1, _⟩, hb => absurd rfl hb)
        (by show k.val + 16 = 16 + k.val; omega)
    have hW : extractStridedSlice ⟨2, ![16, 1]⟩ ![16, 0] a8 h16 (colIdx i k) = a8 (colIdx i (Fin.natAdd 16 k)) :=
      extractStridedSlice_apply ![16, 0] a8 h16 (colIdx i k) (colIdx i (Fin.natAdd 16 k)) (fun a => match a with
        | ⟨0, _⟩ => by show 16 + k.val = 16 + k.val; rfl
        | ⟨1, _⟩ => by show (i 1).val = 0 + (i 1).val; omega)
    beta_reduce
    rw [hJ, hW]

/-- THE DECODER, the kernel's way with the weight column's two halves, is the specification's decoder. -/
theorem decodeK_eq (z0 z1 : FVec Ideal S2000000x16 .f32) (a8 : FVec Ideal S32x1 .f32) (a9 : FVec Ideal S1 .f32)
    (h0 : S32x1.Slices ![0, 0] ⟨2, ![16, 1]⟩) (h16 : S32x1.Slices ![16, 0] ⟨2, ![16, 1]⟩) :
    decodeK z0 z1 (extractStridedSlice ⟨2, ![16, 1]⟩ ![0, 0] a8 h0) (extractStridedSlice ⟨2, ![16, 1]⟩ ![16, 0] a8 h16) a9
      = Cert.Spec.decode (F := Ideal) z0 z1 a8 a9 := by
  funext i
  unfold decodeK Cert.Spec.decode
  rw [addf_apply, addf_apply, addf_apply, halves z0 z1 a8 h0 h16 i]

end Cert.Decode

end
-- ==== Proof.Region5.lean ====
/-
  Region 5: the link decoder, 5000 labelled edges at a time.

  Grid point t loads rows 5000·t … 5000·t + 4999 of the two [2000000, 16] endpoint arrays, the two 16 × 1 halves of
  the weight column and the one-entry bias; it narrows the operands (the identity on the extended reals), multiplies
  each endpoint block with its half into a zero accumulator, adds the two products and the bias stretched down the
  rows, and stores the 5000 × 1 result as block t of the output.  Row r of the result depends on row r of the two
  endpoint arrays only, so block t of the output is block t of the whole-array computation `decodeK`, and the four
  hundred blocks tile the array.
-/
import proofs.«121891_j50448685859415_2_alg».proof.Proof.Gen.KernelIdeal.Frame
import proofs.«121891_j50448685859415_2_alg».proof.Proof.Decode
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.PlainDot Cert.Bridge

theorem hz : (![0, 0] : Fin 2 → Nat) = fun _ => 0 := funext fun a => by fin_cases a <;> rfl
theorem hz1 : (![0] : Fin 1 → Nat) = fun _ => 0 := funext fun a => by fin_cases a; rfl

/-- The body's stored value at an entry y of the block: the whole-array decoder at the entry's place. -/
theorem pay_at (Z0 Z1 : FVec Ideal S2000000x16 .f32) (W0 W1 : FVec Ideal S16x1 .f32) (b : FVec Ideal S1 .f32)
    (x0 x1 : Vec Ideal S5000x16 .f32) (x2 x3 : Vec Ideal S16x1 .f32) (x4 : Vec Ideal S1 .f32)
    (e0 e1 : S5000x16.Idx → S2000000x16.Idx) (eo : S5000x1.Idx → S2000000x1.Idx)
    (hx0 : ∀ j, x0 j = Z0 (e0 j)) (hx1 : ∀ j, x1 j = Z1 (e1 j))
    (hx2 : ∀ j, x2 j = W0 j) (hx3 : ∀ j, x3 j = W1 j) (hx4 : ∀ j, x4 j = b j)
    (h0 : ∀ y k, e0 (rowIdx y k) = rowIdx (eo y) k) (h1 : ∀ y k, e1 (rowIdx y k) = rowIdx (eo y) k)
    (hc : ∀ y (k : Fin 16), (colIdx y k : (⟨2, ![16, 1]⟩ : Shape).Idx) = colIdx (eo y) k)
    (h2 : ∀ y, (rowZero y : (⟨2, ![1, 1]⟩ : Shape).Idx) = rowZero (eo y))
    (y : S5000x1.Idx) :
    k5_pay1 x0 x1 x2 x3 x4 y = Cert.Decode.decodeK Z0 Z1 W0 W1 b (eo y) := by
  have hb : (x4 : S1.Idx → EReal) = b := funext hx4
  have d1 := dot_block dot_S5000x16_S16x1_S5000x1_1_0_0_1_n_n rfl (DotDims.plain 2000000 16 1) rfl none none Z0 W0
    (truncf .bf16 (shapeCast S5000x16 x0 shapeCasts_S5000x16_S5000x16) bitsLt_bf16_f32)
    (truncf .bf16 (shapeCast S16x1 x2 shapeCasts_S16x1_S16x1) bitsLt_bf16_f32) e0 id eo
    (fun j => by rw [truncf_apply, shapeCast_self]; exact hx0 j) (fun j => by rw [truncf_apply, shapeCast_self]; exact hx2 j)
    h0 (fun y k => hc y k) y
  have d2 := dot_block dot_S5000x16_S16x1_S5000x1_1_0_0_1_n_n rfl (DotDims.plain 2000000 16 1) rfl none none Z1 W1
    (truncf .bf16 (shapeCast S5000x16 x1 shapeCasts_S5000x16_S5000x16) bitsLt_bf16_f32)
    (truncf .bf16 (shapeCast S16x1 x3 shapeCasts_S16x1_S16x1) bitsLt_bf16_f32) e1 id eo
    (fun j => by rw [truncf_apply, shapeCast_self]; exact hx1 j) (fun j => by rw [truncf_apply, shapeCast_self]; exact hx3 j)
    h1 (fun y k => hc y k) y
  unfold k5_pay1 Cert.Decode.decodeK
  rw [addf_apply, addf_apply, addf_apply, addf_apply, d1, d2, stretchRow_apply, hostStretchRow_apply, hb,
    reshapeRow_eq b shapeCasts_S1_S1x1 Cert.ReferenceIdeal.Gen.bcast_S1_S1x1_1, h2]

/-- The printed index maps over the grid: the endpoint arrays' and the output's blocks are the t-th row blocks, the
    weight halves' and the bias's blocks are whole. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- What grid point t writes back is block t of the whole-array decoder on the arrays the region finds. -/
theorem flushed_eq (c : Dev nD) (t : Fin cfg5.N) :
    (dat5 V c).flushed 5 t = ((cfg5.win 5).blk t).view.read (Elt Ideal)
      (Cert.Decode.decodeK (V c main_v72) (V c main_v81) (V c main_v82) (V c main_v83) (V c main_arg9)) := by
  show (cfg5.win 5).cut (grid5.coords t) ((dat5 V c).after 5 t) = _
  rw [after5_5]
  unfold out5_5
  rw [View.canon_unit_zero hz]
  simp only [View.ld_unit_zero (S := S5000x16) hz, View.ld_unit_zero (S := S16x1) hz, View.ld_unit_zero (S := S1) hz1]
  obtain ⟨e0, e1, e2, e3, e4, e5, e6, e7, e8, e9, e10⟩ := idx_facts t
  funext j
  refine pay_at (V c main_v72) (V c main_v81) (V c main_v82) (V c main_v83) (V c main_arg9)
    (iblk5 V c 0 t) (iblk5 V c 1 t) (iblk5 V c 2 t) (iblk5 V c 3 t) (iblk5 V c 4 t)
    ((cfg5.win 0).blk t).view.emb ((cfg5.win 1).blk t).view.emb ((cfg5.win 5).blk t).view.emb
    (fun _ => rfl) (fun _ => rfl) ?_ ?_ ?_ ?_ ?_ ?_ ?_ j
  · intro q
    show V c main_v82 (((cfg5.win 2).blk t).view.emb q) = V c main_v82 q
    refine congrArg (V c main_v82) ?_
    funext a; apply Fin.ext
    match a with
    | ⟨0, _⟩ => show win5_2.index t (0 : Fin 2) * 16 + 1 * (q 0).val = (q 0).val; omega
    | ⟨1, _⟩ => show win5_2.index t (1 : Fin 2) * 1 + 1 * (q 1).val = (q 1).val; omega
  · intro q
    show V c main_v83 (((cfg5.win 3).blk t).view.emb q) = V c main_v83 q
    refine congrArg (V c main_v83) ?_
    funext a; apply Fin.ext
    match a with
    | ⟨0, _⟩ => show win5_3.index t (0 : Fin 2) * 16 + 1 * (q 0).val = (q 0).val; omega
    | ⟨1, _⟩ => show win5_3.index t (1 : Fin 2) * 1 + 1 * (q 1).val = (q 1).val; omega
  · intro q
    show V c main_arg9 (((cfg5.win 4).blk t).view.emb q) = V c main_arg9 q
    refine congrArg (V c main_arg9) ?_
    funext a; apply Fin.ext
    match a with
    | ⟨0, _⟩ => show win5_4.index t (0 : Fin 1) * 1 + 1 * (q 0).val = (q 0).val; omega
  · intro y k
    funext a; apply Fin.ext
    match a with
    | ⟨0, _⟩ => show win5_0.index t (0 : Fin 2) * 5000 + 1 * (y 0).val = win5_5.index t (0 : Fin 2) * 5000 + 1 * (y 0).val; omega
    | ⟨1, _⟩ => show win5_0.index t (1 : Fin 2) * 16 + 1 * k.val = k.val; omega
  · intro y k
    funext a; apply Fin.ext
    match a with
    | ⟨0, _⟩ => show win5_1.index t (0 : Fin 2) * 5000 + 1 * (y 0).val = win5_5.index t (0 : Fin 2) * 5000 + 1 * (y 0).val; omega
    | ⟨1, _⟩ => show win5_1.index t (1 : Fin 2) * 16 + 1 * k.val = k.val; omega
  · intro y k
    funext a; apply Fin.ext
    match a with
    | ⟨0, _⟩ => rfl
    | ⟨1, _⟩ => show (y 1).val = win5_5.index t (1 : Fin 2) * 1 + 1 * (y 1).val; omega
  · intro y
    funext a; apply Fin.ext
    match a with
    | ⟨0, _⟩ => rfl
    | ⟨1, _⟩ => show (y 1).val = win5_5.index t (1 : Fin 2) * 1 + 1 * (y 1).val; omega

/-- An index of the output array is in point t's block iff its row is one of the block's 5000 rows. -/
theorem mem_blk (t : Fin cfg5.N) (i : S2000000x1.Idx) :
    i ∈ ((cfg5.win 5).blk t).view.set ↔ ∀ a : Fin 2, win5_5.index t a * S5000x1.size a ≤ (i a).val ∧ (i a).val < win5_5.index t a * S5000x1.size a + S5000x1.size a := by
  show i ∈ ((View.whole main_v84).slice (win5_5.rect t)).set ↔ _
  rw [View.set_slice_whole, Rect.mem_set_unit]
  exact Iff.rfl

/-- The four hundred blocks tile the output: row r lies in block r / 5000. -/
theorem cover (i : S2000000x1.Idx) :
    ∃ t : Fin cfg5.N, (cfg5.win 5).flush t = true ∧ i ∈ ((cfg5.win 5).blk t).view.set := by
  have hi0 : (i 0).val < 2000000 := (i 0).isLt
  have hi1 : (i 1).val < 1 := (i 1).isLt
  have hN : grid5.N = 400 := N_5
  let t : Fin cfg5.N := ⟨(i 0).val / 5000, by show (i 0).val / 5000 < grid5.N; rw [hN]; omega⟩
  obtain ⟨e0, e1, e2, e3, e4, e5, e6, e7, e8, e9, e10⟩ := idx_facts t
  have ht : t.val = (i 0).val / 5000 := rfl
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 1 ≤ (i 1).val ∧ (i 1).val < win5_5.index t (1 : Fin 2) * 1 + 1; omega

/-- THE OUTPUT ARRAY after the region: the whole-array decoder on the five arrays the region finds. -/
theorem final (c : Dev nD) :
    (dat5 V c).arrAt 5 cfg5.N
      = Cert.Decode.decodeK (V c main_v72) (V c main_v81) (V c main_v82) (V c main_v83) (V c main_arg9) :=
  (dat5 V c).arrAt_eq_of_cover 5 _ (fun t _ => flushed_eq V c t) cover

end Cert.KernelIdeal.Region5

end
-- ==== Proof.Host0.lean ====
/-
  The first stretch of host operations of the kernel's program: from the edge list it builds the source and target
  lists with the self-loops appended and counts the in-degrees.  Each buffer it writes holds a stage of the
  specification applied to the edge-list argument; every argument buffer is left as found.
-/
import proofs.«121891_j50448685859415_2_alg».proof.Proof.Gen.KernelIdeal.Launch
import proofs.«121891_j50448685859415_2_alg».proof.Proof.Spec
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd

variable (W : Valuation τ sig (Elt F))

/-- The source list. -/
theorem v3_eq : after hostOps0 W (Proc.devRef .tc main_v3) = Cert.Spec.srcList (F := F) (W (Proc.devRef .tc main_arg1)) := by
  unfold hostOps0; after_results_simp <;> rfl
/-- The target list. -/
theorem v6_eq : after hostOps0 W (Proc.devRef .tc main_v6) = Cert.Spec.dstList (F := F) (W (Proc.devRef .tc main_arg1)) := by
  unfold hostOps0; after_results_simp <;> rfl
/-- The in-degrees. -/
theorem v10_eq : after hostOps0 W (Proc.devRef .tc main_v10) = Cert.Spec.deg (F := F) (W (Proc.devRef .tc main_arg1)) := by
  unfold hostOps0; after_results_simp <;> rfl

theorem keep_main_arg0 : after hostOps0 W (Proc.devRef .tc main_arg0) = W (Proc.devRef .tc main_arg0) := by
  unfold hostOps0; after_results_simp <;> rfl
theorem keep_main_arg2 : after hostOps0 W (Proc.devRef .tc main_arg2) = W (Proc.devRef .tc main_arg2) := by
  unfold hostOps0; after_results_simp <;> rfl
theorem keep_main_arg3 : after hostOps0 W (Proc.devRef .tc main_arg3) = W (Proc.devRef .tc main_arg3) := by
  unfold hostOps0; after_results_simp <;> rfl
theorem keep_main_arg4 : after hostOps0 W (Proc.devRef .tc main_arg4) = W (Proc.devRef .tc main_arg4) := by
  unfold hostOps0; after_results_simp <;> rfl
theorem keep_main_arg5 : after hostOps0 W (Proc.devRef .tc main_arg5) = W (Proc.devRef .tc main_arg5) := by
  unfold hostOps0; after_results_simp <;> rfl
theorem keep_main_arg6 : after hostOps0 W (Proc.devRef .tc main_arg6) = W (Proc.devRef .tc main_arg6) := by
  unfold hostOps0; after_results_simp <;> rfl
theorem keep_main_arg7 : after hostOps0 W (Proc.devRef .tc main_arg7) = W (Proc.devRef .tc main_arg7) := by
  unfold hostOps0; after_results_simp <;> rfl
theorem keep_main_arg8 : after hostOps0 W (Proc.devRef .tc main_arg8) = W (Proc.devRef .tc main_arg8) := by
  unfold hostOps0; after_results_simp <;> rfl
theorem keep_main_arg9 : after hostOps0 W (Proc.devRef .tc main_arg9) = W (Proc.devRef .tc main_arg9) := by
  unfold hostOps0; after_results_simp <;> rfl

end Cert.KernelIdeal.Host0

end
-- ==== Proof.Host1.lean ====
/-
  The second stretch of host operations of the kernel's program: the edge weights from the normalising factors,
  and the embedding rows of the nodes.  Each buffer it writes holds a stage of the specification applied to what the
  stretch finds; the other buffers named here are left as found.
-/
import proofs.«121891_j50448685859415_2_alg».proof.Proof.Gen.KernelIdeal.Launch
import proofs.«121891_j50448685859415_2_alg».proof.Proof.Spec
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd

variable (W : Valuation τ sig (Elt F))

/-- The edge weights, from the normalising factors region 0 left and the two lists. -/
theorem v26_eq (a1 : Cert.Spec.IArr F Cert.ReferenceIdeal.S2x5000000) (dis : Cert.Spec.FArr F Cert.ReferenceIdeal.S500000)
    (h11 : W (Proc.devRef .tc main_v11) = dis)
    (h3 : W (Proc.devRef .tc main_v3) = Cert.Spec.srcList (F := F) a1)
    (h6 : W (Proc.devRef .tc main_v6) = Cert.Spec.dstList (F := F) a1) :
    after hostOps1 W (Proc.devRef .tc main_v26) = Cert.Spec.normOf (F := F) dis a1 := by
  unfold hostOps1; after_results_simp; rw [h11, h3, h6]; rfl
/-- The embedding rows. -/
theorem v33_eq : after hostOps1 W (Proc.devRef .tc main_v33)
    = Cert.Spec.embed (F := F) (W (Proc.devRef .tc main_arg0)) (W (Proc.devRef .tc main_arg3)) := by
  unfold hostOps1; after_results_simp <;> rfl

theorem keep_main_v3 : after hostOps1 W (Proc.devRef .tc main_v3) = W (Proc.devRef .tc main_v3) := by
  unfold hostOps1; after_results_simp <;> rfl
theorem keep_main_v6 : after hostOps1 W (Proc.devRef .tc main_v6) = W (Proc.devRef .tc main_v6) := by
  unfold hostOps1; after_results_simp <;> rfl
theorem keep_main_arg2 : after hostOps1 W (Proc.devRef .tc main_arg2) = W (Proc.devRef .tc main_arg2) := by
  unfold hostOps1; after_results_simp <;> rfl
theorem keep_main_arg4 : after hostOps1 W (Proc.devRef .tc main_arg4) = W (Proc.devRef .tc main_arg4) := by
  unfold hostOps1; after_results_simp <;> rfl
theorem keep_main_arg5 : after hostOps1 W (Proc.devRef .tc main_arg5) = W (Proc.devRef .tc main_arg5) := by
  unfold hostOps1; after_results_simp <;> rfl
theorem keep_main_arg6 : after hostOps1 W (Proc.devRef .tc main_arg6) = W (Proc.devRef .tc main_arg6) := by
  unfold hostOps1; after_results_simp <;> rfl
theorem keep_main_arg7 : after hostOps1 W (Proc.devRef .tc main_arg7) = W (Proc.devRef .tc main_arg7) := by
  unfold hostOps1; after_results_simp <;> rfl
theorem keep_main_arg8 : after hostOps1 W (Proc.devRef .tc main_arg8) = W (Proc.devRef .tc main_arg8) := by
  unfold hostOps1; after_results_simp <;> rfl
theorem keep_main_arg9 : after hostOps1 W (Proc.devRef .tc main_arg9) = W (Proc.devRef .tc main_arg9) := by
  unfold hostOps1; after_results_simp <;> rfl

end Cert.KernelIdeal.Host1

end
-- ==== Proof.Host2.lean ====
/-
  A stretch of host operations of the kernel's program that aggregates: it gathers the projected rows at the edge
  sources, scales them by the edge weights and adds them up at the edge targets.  The buffer it writes holds the
  specification's `aggregate` of what the stretch finds; the other buffers named here are left as found.
-/
import proofs.«121891_j50448685859415_2_alg».proof.Proof.Gen.KernelIdeal.Launch
import proofs.«121891_j50448685859415_2_alg».proof.Proof.Spec
import Idealize.ShloMosaic.Lib.StableHlo.Run

set_option maxRecDepth 16384

noncomputable section

namespace Cert.KernelIdeal.Host2

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd

variable (W : Valuation τ sig (Elt F))

/-- The aggregated rows. -/
theorem v47_eq (a1 : Cert.Spec.IArr F Cert.ReferenceIdeal.S2x5000000) (p : Cert.Spec.FArr F Cert.ReferenceIdeal.S500000x16)
    (norm : Cert.Spec.FArr F Cert.ReferenceIdeal.S5500000)
    (hp : W (Proc.devRef .tc main_v34) = p) (hn : W (Proc.devRef .tc main_v26) = norm)
    (h3 : W (Proc.devRef .tc main_v3) = Cert.Spec.srcList (F := F) a1)
    (h6 : W (Proc.devRef .tc main_v6) = Cert.Spec.dstList (F := F) a1) :
    after hostOps2 W (Proc.devRef .tc main_v47) = Cert.Spec.aggregate (F := F) p norm a1 := by
  unfold hostOps2; after_results_simp; rw [hp, hn, h3, h6]; rfl

theorem keep_main_v3 : after hostOps2 W (Proc.devRef .tc main_v3) = W (Proc.devRef .tc main_v3) := by
  unfold hostOps2; after_results_simp <;> rfl
theorem keep_main_v6 : after hostOps2 W (Proc.devRef .tc main_v6) = W (Proc.devRef .tc main_v6) := by
  unfold hostOps2; after_results_simp <;> rfl
theorem keep_main_v26 : after hostOps2 W (Proc.devRef .tc main_v26) = W (Proc.devRef .tc main_v26) := by
  unfold hostOps2; after_results_simp <;> rfl
theorem keep_main_arg2 : after hostOps2 W (Proc.devRef .tc main_arg2) = W (Proc.devRef .tc main_arg2) := by
  unfold hostOps2; after_results_simp <;> rfl
theorem keep_main_arg5 : after hostOps2 W (Proc.devRef .tc main_arg5) = W (Proc.devRef .tc main_arg5) := by
  unfold hostOps2; after_results_simp <;> rfl
theorem keep_main_arg6 : after hostOps2 W (Proc.devRef .tc main_arg6) = W (Proc.devRef .tc main_arg6) := by
  unfold hostOps2; after_results_simp <;> rfl
theorem keep_main_arg7 : after hostOps2 W (Proc.devRef .tc main_arg7) = W (Proc.devRef .tc main_arg7) := by
  unfold hostOps2; after_results_simp <;> rfl
theorem keep_main_arg8 : after hostOps2 W (Proc.devRef .tc main_arg8) = W (Proc.devRef .tc main_arg8) := by
  unfold hostOps2; after_results_simp <;> rfl
theorem keep_main_arg9 : after hostOps2 W (Proc.devRef .tc main_arg9) = W (Proc.devRef .tc main_arg9) := by
  unfold hostOps2; after_results_simp <;> rfl

end Cert.KernelIdeal.Host2

end
-- ==== Proof.Host4.lean ====
/-
  A stretch of host operations of the kernel's program that aggregates: it gathers the projected rows at the edge
  sources, scales them by the edge weights and adds them up at the edge targets.  The buffer it writes holds the
  specification's `aggregate` of what the stretch finds; the other buffers named here are left as found.
-/
import proofs.«121891_j50448685859415_2_alg».proof.Proof.Gen.KernelIdeal.Launch
import proofs.«121891_j50448685859415_2_alg».proof.Proof.Spec
import Idealize.ShloMosaic.Lib.StableHlo.Run

set_option maxRecDepth 16384

noncomputable section

namespace Cert.KernelIdeal.Host4

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd

variable (W : Valuation τ sig (Elt F))

/-- The aggregated rows. -/
theorem v62_eq (a1 : Cert.Spec.IArr F Cert.ReferenceIdeal.S2x5000000) (p : Cert.Spec.FArr F Cert.ReferenceIdeal.S500000x16)
    (norm : Cert.Spec.FArr F Cert.ReferenceIdeal.S5500000)
    (hp : W (Proc.devRef .tc main_v49) = p) (hn : W (Proc.devRef .tc main_v26) = norm)
    (h3 : W (Proc.devRef .tc main_v3) = Cert.Spec.srcList (F := F) a1)
    (h6 : W (Proc.devRef .tc main_v6) = Cert.Spec.dstList (F := F) a1) :
    after hostOps4 W (Proc.devRef .tc main_v62) = Cert.Spec.aggregate (F := F) p norm a1 := by
  unfold hostOps4; after_results_simp; rw [hp, hn, h3, h6]; rfl

theorem keep_main_arg2 : after hostOps4 W (Proc.devRef .tc main_arg2) = W (Proc.devRef .tc main_arg2) := by
  unfold hostOps4; after_results_simp <;> rfl
theorem keep_main_arg7 : after hostOps4 W (Proc.devRef .tc main_arg7) = W (Proc.devRef .tc main_arg7) := by
  unfold hostOps4; after_results_simp <;> rfl
theorem keep_main_arg8 : after hostOps4 W (Proc.devRef .tc main_arg8) = W (Proc.devRef .tc main_arg8) := by
  unfold hostOps4; after_results_simp <;> rfl
theorem keep_main_arg9 : after hostOps4 W (Proc.devRef .tc main_arg9) = W (Proc.devRef .tc main_arg9) := by
  unfold hostOps4; after_results_simp <;> rfl

end Cert.KernelIdeal.Host4

end
-- ==== Proof.Host5.lean ====
/-
  The last stretch of host operations of the kernel's program: the latent rows at the two endpoints of every
  labelled edge, and the two halves of the decoder's weight column.  Each buffer it writes holds a stage of the
  specification, or a slice, of what the stretch finds; the bias buffer is left as found.
-/
import proofs.«121891_j50448685859415_2_alg».proof.Proof.Gen.KernelIdeal.Launch
import proofs.«121891_j50448685859415_2_alg».proof.Proof.Spec
import Idealize.ShloMosaic.Lib.StableHlo.Run

set_option maxRecDepth 16384

noncomputable section

namespace Cert.KernelIdeal.Host5

open Cert.KernelIdeal Cert.KernelIdeal.Gen
open Idealize.ShloMosaic Idealize.ShloMosaic.TcCoe Idealize.SL.Sem Idealize.ShloMosaic.StableHlo

variable {F : FTy → Type} [FloatOps F]

attribute [local irreducible] Host.gather Host.scatterAdd

variable (W : Valuation τ sig (Elt F))

/-- The rows at the first endpoints. -/
theorem v72_eq : after hostOps5 W (Proc.devRef .tc main_v72)
    = Cert.Spec.endpoint0 (F := F) (W (Proc.devRef .tc main_v63)) (W (Proc.devRef .tc main_arg2)) := by
  unfold hostOps5; after_results_simp <;> rfl
/-- The rows at the second endpoints. -/
theorem v81_eq : after hostOps5 W (Proc.devRef .tc main_v81)
    = Cert.Spec.endpoint1 (F := F) (W (Proc.devRef .tc main_v63)) (W (Proc.devRef .tc main_arg2)) := by
  unfold hostOps5; after_results_simp <;> rfl
/-- The top half of the weight column. -/
theorem v82_eq : after hostOps5 W (Proc.devRef .tc main_v82)
    = extractStridedSlice S16x1 ![0, 0] (W (Proc.devRef .tc main_arg8)) slices_S32x1_S16x1_0_0 := by
  unfold hostOps5; after_results_simp <;> rfl
/-- The bottom half of the weight column. -/
theorem v83_eq : after hostOps5 W (Proc.devRef .tc main_v83)
    = extractStridedSlice S16x1 ![16, 0] (W (Proc.devRef .tc main_arg8)) slices_S32x1_S16x1_16_0 := by
  unfold hostOps5; after_results_simp <;> rfl

theorem keep_main_arg9 : after hostOps5 W (Proc.devRef .tc main_arg9) = W (Proc.devRef .tc main_arg9) := by
  unfold hostOps5; after_results_simp <;> rfl

end Cert.KernelIdeal.Host5

end
-- ==== Proof.Chain.lean ====
/-
  The kernel program's result is the specification of its arguments.

  The buffer contents at the boundaries between @main's eleven segments are followed from the launch to the return:
  after each stretch of host operations the buffers it wrote hold the matching stages of the specification and the
  buffers still needed hold what they held; after each kernel region its output array holds the region's whole-array
  function of the arrays the region found, and nothing else changed.  At the return the result array holds the
  decoder of the kernel's form, which is the specification's decoder (Decode.lean).
-/
import proofs.«121891_j50448685859415_2_alg».proof.Proof.Gen.KernelIdeal.Frame
import proofs.«121891_j50448685859415_2_alg».proof.Proof.Region0
import proofs.«121891_j50448685859415_2_alg».proof.Proof.Region1
import proofs.«121891_j50448685859415_2_alg».proof.Proof.Region2
import proofs.«121891_j50448685859415_2_alg».proof.Proof.Region3
import proofs.«121891_j50448685859415_2_alg».proof.Proof.Region4
import proofs.«121891_j50448685859415_2_alg».proof.Proof.Region5
import proofs.«121891_j50448685859415_2_alg».proof.Proof.Host0
import proofs.«121891_j50448685859415_2_alg».proof.Proof.Host1
import proofs.«121891_j50448685859415_2_alg».proof.Proof.Host2
import proofs.«121891_j50448685859415_2_alg».proof.Proof.Host4
import proofs.«121891_j50448685859415_2_alg».proof.Proof.Host5

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays and the specification's intermediate values -/

abbrev A0 : Cert.Spec.IArr Ideal Cert.ReferenceIdeal.S500000 := m ((c : Thread nD τ).loc main_arg0)
abbrev A1 : Cert.Spec.IArr Ideal Cert.ReferenceIdeal.S2x5000000 := m ((c : Thread nD τ).loc main_arg1)
abbrev A2 : Cert.Spec.IArr Ideal Cert.ReferenceIdeal.S2x2000000 := m ((c : Thread nD τ).loc main_arg2)
abbrev A3 : Cert.Spec.FArr Ideal Cert.ReferenceIdeal.S500000x16 := m ((c : Thread nD τ).loc main_arg3)
abbrev A4 : Cert.Spec.FArr Ideal Cert.ReferenceIdeal.S16x16 := m ((c : Thread nD τ).loc main_arg4)
abbrev A5 : Cert.Spec.FArr Ideal Cert.ReferenceIdeal.S16 := m ((c : Thread nD τ).loc main_arg5)
abbrev A6 : Cert.Spec.FArr Ideal Cert.ReferenceIdeal.S16x16 := m ((c : Thread nD τ).loc main_arg6)
abbrev A7 : Cert.Spec.FArr Ideal Cert.ReferenceIdeal.S16 := m ((c : Thread nD τ).loc main_arg7)
abbrev A8 : Cert.Spec.FArr Ideal Cert.ReferenceIdeal.S32x1 := m ((c : Thread nD τ).loc main_arg8)
abbrev A9 : Cert.Spec.FArr Ideal Cert.ReferenceIdeal.S1 := m ((c : Thread nD τ).loc main_arg9)

/-- The normalising factors. -/
abbrev disV : Cert.Spec.FArr Ideal Cert.ReferenceIdeal.S500000 := Cert.Spec.disOf (F := Ideal) (Cert.Spec.deg (F := Ideal) (A1 m c))
/-- The edge weights. -/
abbrev normV : Cert.Spec.FArr Ideal Cert.ReferenceIdeal.S5500000 := Cert.Spec.normOf (F := Ideal) (disV m c) (A1 m c)
/-- The first layer: projected rows, aggregated rows, output. -/
abbrev p1V : Cert.Spec.FArr Ideal Cert.ReferenceIdeal.S500000x16 := Cert.Spec.project (F := Ideal) (Cert.Spec.embed (F := Ideal) (A0 m c) (A3 m c)) (A4 m c)
abbrev agg1V : Cert.Spec.FArr Ideal Cert.ReferenceIdeal.S500000x16 := Cert.Spec.aggregate (F := Ideal) (p1V m c) (normV m c) (A1 m c)
abbrev h1V : Cert.Spec.FArr Ideal Cert.ReferenceIdeal.S500000x16 := Cert.Spec.rectify (F := Ideal) (Cert.Spec.addBias (F := Ideal) (agg1V m c) (A5 m c))
/-- The second layer: projected rows, aggregated rows, output. -/
abbrev p2V : Cert.Spec.FArr Ideal Cert.ReferenceIdeal.S500000x16 := Cert.Spec.project (F := Ideal) (h1V m c) (A6 m c)
abbrev agg2V : Cert.Spec.FArr Ideal Cert.ReferenceIdeal.S500000x16 := Cert.Spec.aggregate (F := Ideal) (p2V m c) (normV m c) (A1 m c)
abbrev zV : Cert.Spec.FArr Ideal Cert.ReferenceIdeal.S500000x16 := Cert.Spec.addBias (F := Ideal) (agg2V m c) (A7 m c)

/-! ## After the first host stretch -/

theorem B1_v3 : W1 m ρ c (Proc.devRef .tc main_v3) = (Cert.Spec.srcList (F := Ideal) (A1 m c)) :=
  Host0.v3_eq (W0 m ρ c)
theorem B1_v6 : W1 m ρ c (Proc.devRef .tc main_v6) = (Cert.Spec.dstList (F := Ideal) (A1 m c)) :=
  Host0.v6_eq (W0 m ρ c)
theorem B1_v10 : W1 m ρ c (Proc.devRef .tc main_v10) = (Cert.Spec.deg (F := Ideal) (A1 m c)) :=
  Host0.v10_eq (W0 m ρ c)
theorem B1_arg0 : W1 m ρ c (Proc.devRef .tc main_arg0) = (A0 m c) :=
  Host0.keep_main_arg0 (W0 m ρ c)
theorem B1_arg2 : W1 m ρ c (Proc.devRef .tc main_arg2) = (A2 m c) :=
  Host0.keep_main_arg2 (W0 m ρ c)
theorem B1_arg3 : W1 m ρ c (Proc.devRef .tc main_arg3) = (A3 m c) :=
  Host0.keep_main_arg3 (W0 m ρ c)
theorem B1_arg4 : W1 m ρ c (Proc.devRef .tc main_arg4) = (A4 m c) :=
  Host0.keep_main_arg4 (W0 m ρ c)
theorem B1_arg5 : W1 m ρ c (Proc.devRef .tc main_arg5) = (A5 m c) :=
  Host0.keep_main_arg5 (W0 m ρ c)
theorem B1_arg6 : W1 m ρ c (Proc.devRef .tc main_arg6) = (A6 m c) :=
  Host0.keep_main_arg6 (W0 m ρ c)
theorem B1_arg7 : W1 m ρ c (Proc.devRef .tc main_arg7) = (A7 m c) :=
  Host0.keep_main_arg7 (W0 m ρ c)
theorem B1_arg8 : W1 m ρ c (Proc.devRef .tc main_arg8) = (A8 m c) :=
  Host0.keep_main_arg8 (W0 m ρ c)
theorem B1_arg9 : W1 m ρ c (Proc.devRef .tc main_arg9) = (A9 m c) :=
  Host0.keep_main_arg9 (W0 m ρ c)

/-! ## After region 0 -/

theorem B2_v11 : W2 m ρ c (Proc.devRef .tc main_v11) = (disV m c) :=
  (W2_arr m ρ c 1).trans ((Region0.final (V1 m ρ) c).trans (congrArg (Cert.Spec.disOf (F := Ideal)) (B1_v10 m ρ c)))
theorem B2_v3 : W2 m ρ c (Proc.devRef .tc main_v3) = (Cert.Spec.srcList (F := Ideal) (A1 m c)) :=
  (W2_of_ne m ρ c main_v3 (by decide)).trans (B1_v3 m ρ c)
theorem B2_v6 : W2 m ρ c (Proc.devRef .tc main_v6) = (Cert.Spec.dstList (F := Ideal) (A1 m c)) :=
  (W2_of_ne m ρ c main_v6 (by decide)).trans (B1_v6 m ρ c)
theorem B2_arg0 : W2 m ρ c (Proc.devRef .tc main_arg0) = (A0 m c) :=
  (W2_of_ne m ρ c main_arg0 (by decide)).trans (B1_arg0 m ρ c)
theorem B2_arg2 : W2 m ρ c (Proc.devRef .tc main_arg2) = (A2 m c) :=
  (W2_of_ne m ρ c main_arg2 (by decide)).trans (B1_arg2 m ρ c)
theorem B2_arg3 : W2 m ρ c (Proc.devRef .tc main_arg3) = (A3 m c) :=
  (W2_of_ne m ρ c main_arg3 (by decide)).trans (B1_arg3 m ρ c)
theorem B2_arg4 : W2 m ρ c (Proc.devRef .tc main_arg4) = (A4 m c) :=
  (W2_of_ne m ρ c main_arg4 (by decide)).trans (B1_arg4 m ρ c)
theorem B2_arg5 : W2 m ρ c (Proc.devRef .tc main_arg5) = (A5 m c) :=
  (W2_of_ne m ρ c main_arg5 (by decide)).trans (B1_arg5 m ρ c)
theorem B2_arg6 : W2 m ρ c (Proc.devRef .tc main_arg6) = (A6 m c) :=
  (W2_of_ne m ρ c main_arg6 (by decide)).trans (B1_arg6 m ρ c)
theorem B2_arg7 : W2 m ρ c (Proc.devRef .tc main_arg7) = (A7 m c) :=
  (W2_of_ne m ρ c main_arg7 (by decide)).trans (B1_arg7 m ρ c)
theorem B2_arg8 : W2 m ρ c (Proc.devRef .tc main_arg8) = (A8 m c) :=
  (W2_of_ne m ρ c main_arg8 (by decide)).trans (B1_arg8 m ρ c)
theorem B2_arg9 : W2 m ρ c (Proc.devRef .tc main_arg9) = (A9 m c) :=
  (W2_of_ne m ρ c main_arg9 (by decide)).trans (B1_arg9 m ρ c)

/-! ## After the second host stretch -/

theorem B3_v26 : W3 m ρ c (Proc.devRef .tc main_v26) = (normV m c) :=
  Host1.v26_eq (W2 m ρ c) (A1 m c) (disV m c) (B2_v11 m ρ c) (B2_v3 m ρ c) (B2_v6 m ρ c)
theorem B3_v33 : W3 m ρ c (Proc.devRef .tc main_v33) = (Cert.Spec.embed (F := Ideal) (A0 m c) (A3 m c)) :=
  (Host1.v33_eq (W2 m ρ c)).trans (congr (congrArg (Cert.Spec.embed (F := Ideal)) (B2_arg0 m ρ c)) (B2_arg3 m ρ c))
theorem B3_v3 : W3 m ρ c (Proc.devRef .tc main_v3) = (Cert.Spec.srcList (F := Ideal) (A1 m c)) :=
  (Host1.keep_main_v3 (W2 m ρ c)).trans (B2_v3 m ρ c)
theorem B3_v6 : W3 m ρ c (Proc.devRef .tc main_v6) = (Cert.Spec.dstList (F := Ideal) (A1 m c)) :=
  (Host1.keep_main_v6 (W2 m ρ c)).trans (B2_v6 m ρ c)
theorem B3_arg2 : W3 m ρ c (Proc.devRef .tc main_arg2) = (A2 m c) :=
  (Host1.keep_main_arg2 (W2 m ρ c)).trans (B2_arg2 m ρ c)
theorem B3_arg4 : W3 m ρ c (Proc.devRef .tc main_arg4) = (A4 m c) :=
  (Host1.keep_main_arg4 (W2 m ρ c)).trans (B2_arg4 m ρ c)
theorem B3_arg5 : W3 m ρ c (Proc.devRef .tc main_arg5) = (A5 m c) :=
  (Host1.keep_main_arg5 (W2 m ρ c)).trans (B2_arg5 m ρ c)
theorem B3_arg6 : W3 m ρ c (Proc.devRef .tc main_arg6) = (A6 m c) :=
  (Host1.keep_main_arg6 (W2 m ρ c)).trans (B2_arg6 m ρ c)
theorem B3_arg7 : W3 m ρ c (Proc.devRef .tc main_arg7) = (A7 m c) :=
  (Host1.keep_main_arg7 (W2 m ρ c)).trans (B2_arg7 m ρ c)
theorem B3_arg8 : W3 m ρ c (Proc.devRef .tc main_arg8) = (A8 m c) :=
  (Host1.keep_main_arg8 (W2 m ρ c)).trans (B2_arg8 m ρ c)
theorem B3_arg9 : W3 m ρ c (Proc.devRef .tc main_arg9) = (A9 m c) :=
  (Host1.keep_main_arg9 (W2 m ρ c)).trans (B2_arg9 m ρ c)

/-! ## After region 1 -/

theorem B4_v34 : W4 m ρ c (Proc.devRef .tc main_v34) = (p1V m c) :=
  (W4_arr m ρ c 2).trans ((Region1.final (V3 m ρ) c).trans (congr (congrArg (Cert.Spec.project (F := Ideal)) (B3_v33 m ρ c)) (B3_arg4 m ρ c)))
theorem B4_v3 : W4 m ρ c (Proc.devRef .tc main_v3) = (Cert.Spec.srcList (F := Ideal) (A1 m c)) :=
  (W4_of_ne m ρ c main_v3 (by decide)).trans (B3_v3 m ρ c)
theorem B4_v6 : W4 m ρ c (Proc.devRef .tc main_v6) = (Cert.Spec.dstList (F := Ideal) (A1 m c)) :=
  (W4_of_ne m ρ c main_v6 (by decide)).trans (B3_v6 m ρ c)
theorem B4_v26 : W4 m ρ c (Proc.devRef .tc main_v26) = (normV m c) :=
  (W4_of_ne m ρ c main_v26 (by decide)).trans (B3_v26 m ρ c)
theorem B4_arg2 : W4 m ρ c (Proc.devRef .tc main_arg2) = (A2 m c) :=
  (W4_of_ne m ρ c main_arg2 (by decide)).trans (B3_arg2 m ρ c)
theorem B4_arg5 : W4 m ρ c (Proc.devRef .tc main_arg5) = (A5 m c) :=
  (W4_of_ne m ρ c main_arg5 (by decide)).trans (B3_arg5 m ρ c)
theorem B4_arg6 : W4 m ρ c (Proc.devRef .tc main_arg6) = (A6 m c) :=
  (W4_of_ne m ρ c main_arg6 (by decide)).trans (B3_arg6 m ρ c)
theorem B4_arg7 : W4 m ρ c (Proc.devRef .tc main_arg7) = (A7 m c) :=
  (W4_of_ne m ρ c main_arg7 (by decide)).trans (B3_arg7 m ρ c)
theorem B4_arg8 : W4 m ρ c (Proc.devRef .tc main_arg8) = (A8 m c) :=
  (W4_of_ne m ρ c main_arg8 (by decide)).trans (B3_arg8 m ρ c)
theorem B4_arg9 : W4 m ρ c (Proc.devRef .tc main_arg9) = (A9 m c) :=
  (W4_of_ne m ρ c main_arg9 (by decide)).trans (B3_arg9 m ρ c)

/-! ## After the third host stretch -/

theorem B5_v47 : W5 m ρ c (Proc.devRef .tc main_v47) = (agg1V m c) :=
  Host2.v47_eq (W4 m ρ c) (A1 m c) (p1V m c) (normV m c) (B4_v34 m ρ c) (B4_v26 m ρ c) (B4_v3 m ρ c) (B4_v6 m ρ c)
theorem B5_v3 : W5 m ρ c (Proc.devRef .tc main_v3) = (Cert.Spec.srcList (F := Ideal) (A1 m c)) :=
  (Host2.keep_main_v3 (W4 m ρ c)).trans (B4_v3 m ρ c)
theorem B5_v6 : W5 m ρ c (Proc.devRef .tc main_v6) = (Cert.Spec.dstList (F := Ideal) (A1 m c)) :=
  (Host2.keep_main_v6 (W4 m ρ c)).trans (B4_v6 m ρ c)
theorem B5_v26 : W5 m ρ c (Proc.devRef .tc main_v26) = (normV m c) :=
  (Host2.keep_main_v26 (W4 m ρ c)).trans (B4_v26 m ρ c)
theorem B5_arg2 : W5 m ρ c (Proc.devRef .tc main_arg2) = (A2 m c) :=
  (Host2.keep_main_arg2 (W4 m ρ c)).trans (B4_arg2 m ρ c)
theorem B5_arg5 : W5 m ρ c (Proc.devRef .tc main_arg5) = (A5 m c) :=
  (Host2.keep_main_arg5 (W4 m ρ c)).trans (B4_arg5 m ρ c)
theorem B5_arg6 : W5 m ρ c (Proc.devRef .tc main_arg6) = (A6 m c) :=
  (Host2.keep_main_arg6 (W4 m ρ c)).trans (B4_arg6 m ρ c)
theorem B5_arg7 : W5 m ρ c (Proc.devRef .tc main_arg7) = (A7 m c) :=
  (Host2.keep_main_arg7 (W4 m ρ c)).trans (B4_arg7 m ρ c)
theorem B5_arg8 : W5 m ρ c (Proc.devRef .tc main_arg8) = (A8 m c) :=
  (Host2.keep_main_arg8 (W4 m ρ c)).trans (B4_arg8 m ρ c)
theorem B5_arg9 : W5 m ρ c (Proc.devRef .tc main_arg9) = (A9 m c) :=
  (Host2.keep_main_arg9 (W4 m ρ c)).trans (B4_arg9 m ρ c)

/-! ## After region 2 -/

theorem B6_v48 : W6 m ρ c (Proc.devRef .tc main_v48) = (h1V m c) :=
  (W6_arr m ρ c 2).trans ((Region2.final (V5 m ρ) c).trans (congrArg (Cert.Spec.rectify (F := Ideal)) (congr (congrArg (Cert.Spec.addBias (F := Ideal)) (B5_v47 m ρ c)) (B5_arg5 m ρ c))))
theorem B6_v3 : W6 m ρ c (Proc.devRef .tc main_v3) = (Cert.Spec.srcList (F := Ideal) (A1 m c)) :=
  (W6_of_ne m ρ c main_v3 (by decide)).trans (B5_v3 m ρ c)
theorem B6_v6 : W6 m ρ c (Proc.devRef .tc main_v6) = (Cert.Spec.dstList (F := Ideal) (A1 m c)) :=
  (W6_of_ne m ρ c main_v6 (by decide)).trans (B5_v6 m ρ c)
theorem B6_v26 : W6 m ρ c (Proc.devRef .tc main_v26) = (normV m c) :=
  (W6_of_ne m ρ c main_v26 (by decide)).trans (B5_v26 m ρ c)
theorem B6_arg2 : W6 m ρ c (Proc.devRef .tc main_arg2) = (A2 m c) :=
  (W6_of_ne m ρ c main_arg2 (by decide)).trans (B5_arg2 m ρ c)
theorem B6_arg6 : W6 m ρ c (Proc.devRef .tc main_arg6) = (A6 m c) :=
  (W6_of_ne m ρ c main_arg6 (by decide)).trans (B5_arg6 m ρ c)
theorem B6_arg7 : W6 m ρ c (Proc.devRef .tc main_arg7) = (A7 m c) :=
  (W6_of_ne m ρ c main_arg7 (by decide)).trans (B5_arg7 m ρ c)
theorem B6_arg8 : W6 m ρ c (Proc.devRef .tc main_arg8) = (A8 m c) :=
  (W6_of_ne m ρ c main_arg8 (by decide)).trans (B5_arg8 m ρ c)
theorem B6_arg9 : W6 m ρ c (Proc.devRef .tc main_arg9) = (A9 m c) :=
  (W6_of_ne m ρ c main_arg9 (by decide)).trans (B5_arg9 m ρ c)

/-! ## After region 3 -/

theorem B7_v49 : W7 m ρ c (Proc.devRef .tc main_v49) = (p2V m c) :=
  (W7_arr m ρ c 2).trans ((Region3.final (V6 m ρ) c).trans (congr (congrArg (Cert.Spec.project (F := Ideal)) (B6_v48 m ρ c)) (B6_arg6 m ρ c)))
theorem B7_v3 : W7 m ρ c (Proc.devRef .tc main_v3) = (Cert.Spec.srcList (F := Ideal) (A1 m c)) :=
  (W7_of_ne m ρ c main_v3 (by decide)).trans (B6_v3 m ρ c)
theorem B7_v6 : W7 m ρ c (Proc.devRef .tc main_v6) = (Cert.Spec.dstList (F := Ideal) (A1 m c)) :=
  (W7_of_ne m ρ c main_v6 (by decide)).trans (B6_v6 m ρ c)
theorem B7_v26 : W7 m ρ c (Proc.devRef .tc main_v26) = (normV m c) :=
  (W7_of_ne m ρ c main_v26 (by decide)).trans (B6_v26 m ρ c)
theorem B7_arg2 : W7 m ρ c (Proc.devRef .tc main_arg2) = (A2 m c) :=
  (W7_of_ne m ρ c main_arg2 (by decide)).trans (B6_arg2 m ρ c)
theorem B7_arg7 : W7 m ρ c (Proc.devRef .tc main_arg7) = (A7 m c) :=
  (W7_of_ne m ρ c main_arg7 (by decide)).trans (B6_arg7 m ρ c)
theorem B7_arg8 : W7 m ρ c (Proc.devRef .tc main_arg8) = (A8 m c) :=
  (W7_of_ne m ρ c main_arg8 (by decide)).trans (B6_arg8 m ρ c)
theorem B7_arg9 : W7 m ρ c (Proc.devRef .tc main_arg9) = (A9 m c) :=
  (W7_of_ne m ρ c main_arg9 (by decide)).trans (B6_arg9 m ρ c)

/-! ## After the fourth host stretch -/

theorem B8_v62 : W8 m ρ c (Proc.devRef .tc main_v62) = (agg2V m c) :=
  Host4.v62_eq (W7 m ρ c) (A1 m c) (p2V m c) (normV m c) (B7_v49 m ρ c) (B7_v26 m ρ c) (B7_v3 m ρ c) (B7_v6 m ρ c)
theorem B8_arg2 : W8 m ρ c (Proc.devRef .tc main_arg2) = (A2 m c) :=
  (Host4.keep_main_arg2 (W7 m ρ c)).trans (B7_arg2 m ρ c)
theorem B8_arg7 : W8 m ρ c (Proc.devRef .tc main_arg7) = (A7 m c) :=
  (Host4.keep_main_arg7 (W7 m ρ c)).trans (B7_arg7 m ρ c)
theorem B8_arg8 : W8 m ρ c (Proc.devRef .tc main_arg8) = (A8 m c) :=
  (Host4.keep_main_arg8 (W7 m ρ c)).trans (B7_arg8 m ρ c)
theorem B8_arg9 : W8 m ρ c (Proc.devRef .tc main_arg9) = (A9 m c) :=
  (Host4.keep_main_arg9 (W7 m ρ c)).trans (B7_arg9 m ρ c)

/-! ## After region 4 -/

theorem B9_v63 : W9 m ρ c (Proc.devRef .tc main_v63) = (zV m c) :=
  (W9_arr m ρ c 2).trans ((Region4.final (V8 m ρ) c).trans (congr (congrArg (Cert.Spec.addBias (F := Ideal)) (B8_v62 m ρ c)) (B8_arg7 m ρ c)))
theorem B9_arg2 : W9 m ρ c (Proc.devRef .tc main_arg2) = (A2 m c) :=
  (W9_of_ne m ρ c main_arg2 (by decide)).trans (B8_arg2 m ρ c)
theorem B9_arg8 : W9 m ρ c (Proc.devRef .tc main_arg8) = (A8 m c) :=
  (W9_of_ne m ρ c main_arg8 (by decide)).trans (B8_arg8 m ρ c)
theorem B9_arg9 : W9 m ρ c (Proc.devRef .tc main_arg9) = (A9 m c) :=
  (W9_of_ne m ρ c main_arg9 (by decide)).trans (B8_arg9 m ρ c)

/-! ## After the last host stretch -/

theorem B10_v72 : W10 m ρ c (Proc.devRef .tc main_v72) = (Cert.Spec.endpoint0 (F := Ideal) (zV m c) (A2 m c)) :=
  (Host5.v72_eq (W9 m ρ c)).trans (congr (congrArg (Cert.Spec.endpoint0 (F := Ideal)) (B9_v63 m ρ c)) (B9_arg2 m ρ c))
theorem B10_v81 : W10 m ρ c (Proc.devRef .tc main_v81) = (Cert.Spec.endpoint1 (F := Ideal) (zV m c) (A2 m c)) :=
  (Host5.v81_eq (W9 m ρ c)).trans (congr (congrArg (Cert.Spec.endpoint1 (F := Ideal)) (B9_v63 m ρ c)) (B9_arg2 m ρ c))
theorem B10_v82 : W10 m ρ c (Proc.devRef .tc main_v82) = (extractStridedSlice S16x1 ![0, 0] (A8 m c) slices_S32x1_S16x1_0_0) :=
  (Host5.v82_eq (W9 m ρ c)).trans (congrArg (fun x => extractStridedSlice S16x1 ![0, 0] x slices_S32x1_S16x1_0_0) (B9_arg8 m ρ c))
theorem B10_v83 : W10 m ρ c (Proc.devRef .tc main_v83) = (extractStridedSlice S16x1 ![16, 0] (A8 m c) slices_S32x1_S16x1_16_0) :=
  (Host5.v83_eq (W9 m ρ c)).trans (congrArg (fun x => extractStridedSlice S16x1 ![16, 0] x slices_S32x1_S16x1_16_0) (B9_arg8 m ρ c))
theorem B10_arg9 : W10 m ρ c (Proc.devRef .tc main_arg9) = (A9 m c) :=
  (Host5.keep_main_arg9 (W9 m ρ c)).trans (B9_arg9 m ρ c)

/-! ## At the return -/

/-- THE RESULT ARRAY at the return is the specification of the argument arrays. -/
theorem result_eq : W11 m ρ c (Proc.devRef .tc main_v84)
    = Cert.Spec.out (F := Ideal) (A0 m c) (A1 m c) (A2 m c) (A3 m c) (A4 m c) (A5 m c) (A6 m c) (A7 m c) (A8 m c) (A9 m c) := by
  refine (W11_arr m ρ c 5).trans ((Region5.final (V10 m ρ) c).trans ?_)
  refine (congr (congr (congr (congr (congrArg Cert.Decode.decodeK (B10_v72 m ρ c)) (B10_v81 m ρ c)) (B10_v82 m ρ c)) (B10_v83 m ρ c)) (B10_arg9 m ρ c)).trans ?_
  exact Cert.Decode.decodeK_eq _ _ (A8 m c) (A9 m c) slices_S32x1_S16x1_0_0 slices_S32x1_S16x1_16_0

end Cert.KernelIdeal.Chain

end
-- ==== Proof.RefSpec.lean ====
/-
  The reference program computes the specification: its run ends with the result array at the composition of the
  stages of Spec.lean, applied to the argument arrays.  The run's composed term is that composition once the
  stages' names are unfolded.
-/
import proofs.«121891_j50448685859415_2_alg».proof.Proof.RefRun
import proofs.«121891_j50448685859415_2_alg».proof.Proof.Spec

noncomputable section

namespace Cert.RefSpec

open Cert.ReferenceIdeal Cert.ReferenceIdeal.Gen Idealize.ShloMosaic Idealize.ShloMosaic.TcCoe Idealize.SL.Sem

variable {F : FTy → Type} [FloatOps F]

set_option maxRecDepth 8192 in
/-- The reference's result is the specification of its arguments. -/
theorem res_eq (m : (ℓ : Loc nD τ sig) → Buf (Elt F) ℓ) (c : Dev nD) :
    Cert.ReferenceIdeal.ValueP.res_main_v96 m c
      = Cert.Spec.out (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v96; rfl

end Cert.RefSpec

end
-- ==== Proof.lean ====
/-
  Kernel and reference compute the same function.

  Both programs are a two-layer graph convolution with symmetric degree normalisation followed by a link decoder
  (Proof/Spec.lean states it stage by stage).  The reference is one host program; the kernel's program runs the
  irregular steps — building the edge lists, the degree count, the gathers along edges and the scatter-adds — as the
  same host operations, and the regular steps as six kernel regions: the normalising factor of every node, the two
  products with the layers' weight matrices, the two bias additions (the first followed by a maximum with zero) and
  the decoder.  At the ideal values each region computes, block of rows by block of rows, the whole-array function
  the reference applies at that place (Proof/Region0–5.lean): a change of float format is the identity, a matrix
  product into a zero accumulator is the host's contraction, and the decoder's two half contractions add up to the
  contraction of the joined rows (Proof/Decode.lean) — by commutativity and associativity of addition alone, so the
  inputs' finiteness is never used.  Proof/Chain.lean follows the buffer contents through the kernel program's
  eleven segments; Proof/RefSpec.lean reads the reference's run.

  The ideal pass rewrote nothing, so the kernel's idealization is its own text read at the ideal values.
-/
import proofs.«121891_j50448685859415_2_alg».proof.Defs
import proofs.«121891_j50448685859415_2_alg».proof.Proof.Gen.Kernel
import proofs.«121891_j50448685859415_2_alg».proof.Proof.Gen.Kernel.Skeleton
import proofs.«121891_j50448685859415_2_alg».proof.Proof.Gen.Kernel.Launch
import proofs.«121891_j50448685859415_2_alg».proof.Proof.Gen.Kernel.Points
import proofs.«121891_j50448685859415_2_alg».proof.Proof.Gen.Kernel.Frame
import proofs.«121891_j50448685859415_2_alg».proof.Proof.Gen.KernelIdeal
import proofs.«121891_j50448685859415_2_alg».proof.Proof.Gen.KernelIdeal.Skeleton
import proofs.«121891_j50448685859415_2_alg».proof.Proof.Gen.KernelIdeal.Launch
import proofs.«121891_j50448685859415_2_alg».proof.Proof.Gen.KernelIdeal.Points
import proofs.«121891_j50448685859415_2_alg».proof.Proof.Gen.KernelIdeal.Frame
import proofs.«121891_j50448685859415_2_alg».proof.Proof.Gen.ReferenceIdeal
import proofs.«121891_j50448685859415_2_alg».proof.Proof.Gen.Pre_finite_inputs
import proofs.«121891_j50448685859415_2_alg».proof.Proof.KernelRun
import proofs.«121891_j50448685859415_2_alg».proof.Proof.Chain
import proofs.«121891_j50448685859415_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the specification of the argument arrays, which agree. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result_eq m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.RefSpec.res_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
